-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x400 : Shape := ⟨2, ![50000, 400]⟩
abbrev S3x400x400 : Shape := ⟨3, ![3, 400, 400]⟩
abbrev S1200x400 : Shape := ⟨2, ![1200, 400]⟩
abbrev S1200 : Shape := ⟨1, ![1200]⟩
abbrev S2x200000 : Shape := ⟨2, ![2, 200000]⟩
abbrev S50000 : Shape := ⟨1, ![50000]⟩
abbrev S_ : Shape := ⟨0, ![]⟩

class Facts : Prop where
  bcast_S_S50000x400 : S_.BroadcastsInDim S50000x400 (![] : Fin 0 → Fin S50000x400.rank)
  reducesTo_S50000x400_S_d0_1 : S50000x400.ReducesTo [0, 1] S_
  h_S_ : 0 < S_.numel
  bcast_S_S3x400x400 : S_.BroadcastsInDim S3x400x400 (![] : Fin 0 → Fin S3x400x400.rank)
  reducesTo_S3x400x400_S_d0_1_2 : S3x400x400.ReducesTo [0, 1, 2] S_
  bcast_S_S1200x400 : S_.BroadcastsInDim S1200x400 (![] : Fin 0 → Fin S1200x400.rank)
  reducesTo_S1200x400_S_d0_1 : S1200x400.ReducesTo [0, 1] S_
  bcast_S_S1200 : S_.BroadcastsInDim S1200 (![] : Fin 0 → Fin S1200.rank)
  reducesTo_S1200_S_d0 : S1200.ReducesTo [0] S_

variable [Facts]

def fn_part1 {F : FTy → Type} [FloatOps F] (main_arg4 : FVec F S1200 .f32) (main_arg5 : FVec F S1200 .f32) (main_v13 : IVec S_ 1) (main_v16 : IVec S1200x400 1) : IVec S_ 1 :=
  let main_c_5 : IVec S_ 1 := constantI S_ 1 1#1
  let main_v17 : IVec S_ 1 := (fun x v => Host.reduce IntOp.andi x v reducesTo_S1200x400_S_d0_1 h_S_) main_v16 main_c_5
  let main_v18 : IVec S_ 1 := andi main_v13 main_v17
  let main_v19 : FVec F S1200 .f32 := Host.absf main_arg4
  let main_cst_6 : FVec F S_ .f32 := constant S_ .f32 0x7F800000#32
  let main_v20 : FVec F S1200 .f32 := broadcastInDim S1200 ![] bcast_S_S1200 main_cst_6
  let main_v21 : IVec S1200 1 := cmpf .olt main_v19 main_v20
  let main_c_7 : IVec S_ 1 := constantI S_ 1 1#1
  let main_v22 : IVec S_ 1 := (fun x v => Host.reduce IntOp.andi x v reducesTo_S1200_S_d0 h_S_) main_v21 main_c_7
  let main_v23 : IVec S_ 1 := andi main_v18 main_v22
  let main_v24 : FVec F S1200 .f32 := Host.absf main_arg5
  let main_cst_8 : FVec F S_ .f32 := constant S_ .f32 0x7F800000#32
  let main_v25 : FVec F S1200 .f32 := broadcastInDim S1200 ![] bcast_S_S1200 main_cst_8
  let main_v26 : IVec S1200 1 := cmpf .olt main_v24 main_v25
  let main_c_9 : IVec S_ 1 := constantI S_ 1 1#1
  let main_v27 : IVec S_ 1 := (fun x v => Host.reduce IntOp.andi x v reducesTo_S1200_S_d0 h_S_) main_v26 main_c_9
  let main_v28 : IVec S_ 1 := andi main_v23 main_v27
  main_v28

def fn {F : FTy → Type} [FloatOps F] (main_arg0 : FVec F S50000x400 .f32) (main_arg1 : FVec F S3x400x400 .f32) (main_arg2 : FVec F S1200x400 .f32) (main_arg3 : FVec F S1200x400 .f32) (main_arg4 : FVec F S1200 .f32) (main_arg5 : FVec F S1200 .f32) (main_arg6 : IVec S2x200000 32) (main_arg7 : IVec S50000 32) : IVec S_ 1 :=
  let main_v0 : FVec F S50000x400 .f32 := Host.absf main_arg0
  let main_cst : FVec F S_ .f32 := constant S_ .f32 0x7F800000#32
  let main_v1 : FVec F S50000x400 .f32 := broadcastInDim S50000x400 ![] bcast_S_S50000x400 main_cst
  let main_v2 : IVec S50000x400 1 := cmpf .olt main_v0 main_v1
  let main_c : IVec S_ 1 := constantI S_ 1 1#1
  let main_v3 : IVec S_ 1 := (fun x v => Host.reduce IntOp.andi x v reducesTo_S50000x400_S_d0_1 h_S_) main_v2 main_c
  let main_v4 : FVec F S3x400x400 .f32 := Host.absf main_arg1
  let main_cst_0 : FVec F S_ .f32 := constant S_ .f32 0x7F800000#32
  let main_v5 : FVec F S3x400x400 .f32 := broadcastInDim S3x400x400 ![] bcast_S_S3x400x400 main_cst_0
  let main_v6 : IVec S3x400x400 1 := cmpf .olt main_v4 main_v5
  let main_c_1 : IVec S_ 1 := constantI S_ 1 1#1
  let main_v7 : IVec S_ 1 := (fun x v => Host.reduce IntOp.andi x v reducesTo_S3x400x400_S_d0_1_2 h_S_) main_v6 main_c_1
  let main_v8 : IVec S_ 1 := andi main_v3 main_v7
  let main_v9 : FVec F S1200x400 .f32 := Host.absf main_arg2
  let main_cst_2 : FVec F S_ .f32 := constant S_ .f32 0x7F800000#32
  let main_v10 : FVec F S1200x400 .f32 := broadcastInDim S1200x400 ![] bcast_S_S1200x400 main_cst_2
  let main_v11 : IVec S1200x400 1 := cmpf .olt main_v9 main_v10
  let main_c_3 : IVec S_ 1 := constantI S_ 1 1#1
  let main_v12 : IVec S_ 1 := (fun x v => Host.reduce IntOp.andi x v reducesTo_S1200x400_S_d0_1 h_S_) main_v11 main_c_3
  let main_v13 : IVec S_ 1 := andi main_v8 main_v12
  let main_v14 : FVec F S1200x400 .f32 := Host.absf main_arg3
  let main_cst_4 : FVec F S_ .f32 := constant S_ .f32 0x7F800000#32
  let main_v15 : FVec F S1200x400 .f32 := broadcastInDim S1200x400 ![] bcast_S_S1200x400 main_cst_4
  let main_v16 : IVec S1200x400 1 := cmpf .olt main_v14 main_v15
  fn_part1 (F := F) main_arg4 main_arg5 main_v13 main_v16
-- ==== Kernel.lean ====
abbrev S50000x400 : Shape := ⟨2, ![50000, 400]⟩
abbrev S3x400x400 : Shape := ⟨3, ![3, 400, 400]⟩
abbrev S1200x400 : Shape := ⟨2, ![1200, 400]⟩
abbrev S1200 : Shape := ⟨1, ![1200]⟩
abbrev S2x200000 : Shape := ⟨2, ![2, 200000]⟩
abbrev S50000 : Shape := ⟨1, ![50000]⟩
abbrev S1x200000 : Shape := ⟨2, ![1, 200000]⟩
abbrev S200000 : Shape := ⟨1, ![200000]⟩
abbrev S400x1200 : Shape := ⟨2, ![400, 1200]⟩
abbrev S1x1200 : Shape := ⟨2, ![1, 1200]⟩
abbrev S1x400x400 : Shape := ⟨3, ![1, 400, 400]⟩
abbrev S400x400 : Shape := ⟨2, ![400, 400]⟩
abbrev S2000x400 : Shape := ⟨2, ![2000, 400]⟩
abbrev S_ : Shape := ⟨0, ![]⟩
abbrev S200000x1 : Shape := ⟨2, ![200000, 1]⟩
abbrev S200000x400 : Shape := ⟨2, ![200000, 400]⟩

abbrev nBuf : Space → Nat
  | .hbm => 67
  | .vmem => 45
  | .smem => 0
  | _ => 0

abbrev bufTy : (tb : Table) → Fin (tcTables nBuf tb) → BufTy
  | .hbm, ⟨0, _⟩ => ⟨S50000x400, .f32⟩
  | .hbm, ⟨1, _⟩ => ⟨S3x400x400, .f32⟩
  | .hbm, ⟨2, _⟩ => ⟨S1200x400, .f32⟩
  | .hbm, ⟨3, _⟩ => ⟨S1200x400, .f32⟩
  | .hbm, ⟨4, _⟩ => ⟨S1200, .f32⟩
  | .hbm, ⟨5, _⟩ => ⟨S1200, .f32⟩
  | .hbm, ⟨6, _⟩ => ⟨S2x200000, .i32⟩
  | .hbm, ⟨7, _⟩ => ⟨S50000, .i32⟩
  | .hbm, ⟨8, _⟩ => ⟨S1x200000, .i32⟩
  | .hbm, ⟨9, _⟩ => ⟨S200000, .i32⟩
  | .hbm, ⟨10, _⟩ => ⟨S1x200000, .i32⟩
  | .hbm, ⟨11, _⟩ => ⟨S200000, .i32⟩
  | .hbm, ⟨12, _⟩ => ⟨S400x1200, .f32⟩
  | .hbm, ⟨13, _⟩ => ⟨S400x1200, .f32⟩
  | .hbm, ⟨14, _⟩ => ⟨S1x1200, .f32⟩
  | .hbm, ⟨15, _⟩ => ⟨S1x1200, .f32⟩
  | .hbm, ⟨16, _⟩ => ⟨S1x400x400, .f32⟩
  | .hbm, ⟨17, _⟩ => ⟨S400x400, .f32⟩
  | .hbm, ⟨18, _⟩ => ⟨S50000x400, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x400, .f32⟩
  | .hbm, ⟨28, _⟩ => ⟨S_, .f32⟩
  | .hbm, ⟨29, _⟩ => ⟨S50000x400, .f32⟩
  | .hbm, ⟨30, _⟩ => ⟨S200000x1, .i32⟩
  | .hbm, ⟨31, _⟩ => ⟨S50000x400, .f32⟩
  | .hbm, ⟨32, _⟩ => ⟨S50000x400, .f32⟩
  | .hbm, ⟨33, _⟩ => ⟨S1x400x400, .f32⟩
  | .hbm, ⟨34, _⟩ => ⟨S400x400, .f32⟩
  | .hbm, ⟨35, _⟩ => ⟨S50000x400, .f32⟩
  | .hbm, ⟨36, _⟩ => ⟨S_, .i32⟩
  | .hbm, ⟨37, _⟩ => ⟨S200000, .i32⟩
  | .hbm, ⟨38, _⟩ => ⟨S200000, .i1⟩
  | .hbm, ⟨39, _⟩ => ⟨S_, .i32⟩
  | .hbm, ⟨40, _⟩ => ⟨S200000, .i32⟩
  | .hbm, ⟨41, _⟩ => ⟨S200000, .i32⟩
  | .hbm, ⟨42, _⟩ => ⟨S200000, .i32⟩
  | .hbm, ⟨43, _⟩ => ⟨S200000x1, .i32⟩
  | .hbm, ⟨44, _⟩ => ⟨S200000x400, .f32⟩
  | .hbm, ⟨45, _⟩ => ⟨S_, .f32⟩
  | .hbm, ⟨46, _⟩ => ⟨S50000x400, .f32⟩
  | .hbm, ⟨47, _⟩ => ⟨S200000x1, .i32⟩
  | .hbm, ⟨48, _⟩ => ⟨S50000x400, .f32⟩
  | .hbm, ⟨49, _⟩ => ⟨S50000x400, .f32⟩
  | .hbm, ⟨50, _⟩ => ⟨S1x400x400, .f32⟩
  | .hbm, ⟨51, _⟩ => ⟨S400x400, .f32⟩
  | .hbm, ⟨52, _⟩ => ⟨S50000x400, .f32⟩
  | .hbm, ⟨53, _⟩ => ⟨S_, .i32⟩
  | .hbm, ⟨54, _⟩ => ⟨S200000, .i32⟩
  | .hbm, ⟨55, _⟩ => ⟨S200000, .i1⟩
  | .hbm, ⟨56, _⟩ => ⟨S_, .i32⟩
  | .hbm, ⟨57, _⟩ => ⟨S200000, .i32⟩
  | .hbm, ⟨58, _⟩ => ⟨S200000, .i32⟩
  | .hbm, ⟨59, _⟩ => ⟨S200000, .i32⟩
  | .hbm, ⟨60, _⟩ => ⟨S200000x1, .i32⟩
  | .hbm, ⟨61, _⟩ => ⟨S200000x400, .f32⟩
  | .hbm, ⟨62, _⟩ => ⟨S_, .f32⟩
  | .hbm, ⟨63, _⟩ => ⟨S50000x400, .f32⟩
  | .hbm, ⟨64, _⟩ => ⟨S200000x1, .i32⟩
  | .hbm, ⟨65, _⟩ => ⟨S50000x400, .f32⟩
  | .hbm, ⟨66, _⟩ => ⟨S50000x400, .f32⟩
  | .local _ .vmem, ⟨0, _⟩ => ⟨S2000x400, .f32⟩
  | .local _ .vmem, ⟨1, _⟩ => ⟨S2000x400, .f32⟩
  | .local _ .vmem, ⟨2, _⟩ => ⟨S400x400, .f32⟩
  | .local _ .vmem, ⟨3, _⟩ => ⟨S2000x400, .f32⟩
  | .local _ .vmem, ⟨4, _⟩ => ⟨S2000x400, .f32⟩
  | .local _ .vmem, ⟨5, _⟩ => ⟨S400x400, .f32⟩
  | .local _ .vmem, ⟨6, _⟩ => ⟨S400x400, .f32⟩
  | .local _ .vmem, ⟨7, _⟩ => ⟨S400x400, .f32⟩
  | .local _ .vmem, ⟨8, _⟩ => ⟨S400x400, .f32⟩
  | .local _ .vmem, ⟨9, _⟩ => ⟨S400x1200, .f32⟩
  | .local _ .vmem, ⟨10, _⟩ => ⟨S400x1200, .f32⟩
  | .local _ .vmem, ⟨11, _⟩ => ⟨S1x1200, .f32⟩
  | .local _ .vmem, ⟨12, _⟩ => ⟨S1x1200, .f32⟩
  | .local _ .vmem, ⟨13, _⟩ => ⟨S400x400, .f32⟩
  | .local _ .vmem, ⟨14, _⟩ => ⟨S400x400, .f32⟩
  | .local _ .vmem, ⟨15, _⟩ => ⟨S2000x400, .f32⟩
  | .local _ .vmem, ⟨16, _⟩ => ⟨S2000x400, .f32⟩
  | .local _ .vmem, ⟨17, _⟩ => ⟨S400x400, .f32⟩
  | .local _ .vmem, ⟨18, _⟩ => ⟨S2000x400, .f32⟩
  | .local _ .vmem, ⟨19, _⟩ => ⟨S2000x400, .f32⟩
  | .local _ .vmem, ⟨20, _⟩ => ⟨S400x400, .f32⟩
  | .local _ .vmem, ⟨21, _⟩ => ⟨S400x400, .f32⟩
  | .local _ .vmem, ⟨22, _⟩ => ⟨S400x400, .f32⟩
  | .local _ .vmem, ⟨23, _⟩ => ⟨S400x400, .f32⟩
  | .local _ .vmem, ⟨24, _⟩ => ⟨S400x1200, .f32⟩
  | .local _ .vmem, ⟨25, _⟩ => ⟨S400x1200, .f32⟩
  | .local _ .vmem, ⟨26, _⟩ => ⟨S1x1200, .f32⟩
  | .local _ .vmem, ⟨27, _⟩ => ⟨S1x1200, .f32⟩
  | .local _ .vmem, ⟨28, _⟩ => ⟨S400x400, .f32⟩
  | .local _ .vmem, ⟨29, _⟩ => ⟨S400x400, .f32⟩
  | .local _ .vmem, ⟨30, _⟩ => ⟨S2000x400, .f32⟩
  | .local _ .vmem, ⟨31, _⟩ => ⟨S2000x400, .f32⟩
  | .local _ .vmem, ⟨32, _⟩ => ⟨S400x400, .f32⟩
  | .local _ .vmem, ⟨33, _⟩ => ⟨S2000x400, .f32⟩
  | .local _ .vmem, ⟨34, _⟩ => ⟨S2000x400, .f32⟩
  | .local _ .vmem, ⟨35, _⟩ => ⟨S400x400, .f32⟩
  | .local _ .vmem, ⟨36, _⟩ => ⟨S400x400, .f32⟩
  | .local _ .vmem, ⟨37, _⟩ => ⟨S400x400, .f32⟩
  | .local _ .vmem, ⟨38, _⟩ => ⟨S400x400, .f32⟩
  | .local _ .vmem, ⟨39, _⟩ => ⟨S400x1200, .f32⟩
  | .local _ .vmem, ⟨40, _⟩ => ⟨S400x1200, .f32⟩
  | .local _ .vmem, ⟨41, _⟩ => ⟨S1x1200, .f32⟩
  | .local _ .vmem, ⟨42, _⟩ => ⟨S1x1200, .f32⟩
  | .local _ .vmem, ⟨43, _⟩ => ⟨S400x400, .f32⟩
  | .local _ .vmem, ⟨44, _⟩ => ⟨S400x400, .f32⟩
  | _, _ => ⟨S50000x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_1 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S400x1200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S400x1200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1200 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x400 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x400 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S400x400 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x400 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x400 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x400 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S400x1200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S400x1200 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1200 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1200 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S400x400 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x400 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S400x400 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x400 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x400 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S400x400 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S400x1200 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S400x1200 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1200 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1200 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S400x400 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  transposes_S1200x400_S400x1200_1_0 : S1200x400.Transposes [1, 0] S400x1200
  shapeCasts_S1200_S1x1200 : S1200.ShapeCasts S1x1200
  slices_S3x400x400_S1x400x400_0_0_0 : S3x400x400.Slices ![0, 0, 0] S1x400x400
  shapeCasts_S1x400x400_S400x400 : S1x400x400.ShapeCasts S400x400
  inb_S2000x400_S2000x400_0_0 : ∀ a, (![0, 0] : Fin 2 → Nat) a + S2000x400.size a ≤ S2000x400.size a
  h_S2000x400 : 0 < S2000x400.numel
  bitsLt_bf16_f32 : FTy.bits .bf16 < FTy.bits .f32
  inb_S400x400_S400x400_0_0 : ∀ a, (![0, 0] : Fin 2 → Nat) a + S400x400.size a ≤ S400x400.size a
  h_S400x400 : 0 < S400x400.numel
  shapeCasts_S400x400_S400x400 : S400x400.ShapeCasts S400x400
  bcast_S_S200000 : S_.BroadcastsInDim S200000 (![] : Fin 0 → Fin S200000.rank)
  bcast_S200000_S200000x1_0 : S200000.BroadcastsInDim S200000x1 (![0] : Fin 1 → Fin S200000x1.rank)
  bcast_S_S50000x400 : S_.BroadcastsInDim S50000x400 (![] : Fin 0 → Fin S50000x400.rank)
  inb_S400x1200_S400x1200_0_0 : ∀ a, (![0, 0] : Fin 2 → Nat) a + S400x1200.size a ≤ S400x1200.size a
  h_S400x1200 : 0 < S400x1200.numel
  shapeCasts_S400x1200_S400x1200 : S400x1200.ShapeCasts S400x1200
  inb_S1x1200_S1x1200_0_0 : ∀ a, (![0, 0] : Fin 2 → Nat) a + S1x1200.size a ≤ S1x1200.size a
  h_S1x1200 : 0 < S1x1200.numel
  shapeCasts_S1x1200_S1x1200 : S1x1200.ShapeCasts S1x1200
  broadcasts_S1x1200_S400x1200 : S1x1200.Broadcasts S400x1200
  slices_S400x1200_o0_0_S400x400 : S400x1200.Slices ![0, 0] S400x400
  slices_S400x1200_o0_400_S400x400 : S400x1200.Slices ![0, 400] S400x400
  slices_S400x1200_o0_800_S400x400 : S400x1200.Slices ![0, 800] S400x400
  slices_S3x400x400_S1x400x400_1_0_0 : S3x400x400.Slices ![1, 0, 0] S1x400x400
  shapeCasts_S2000x400_S2000x400 : S2000x400.ShapeCasts S2000x400
  slices_S3x400x400_S1x400x400_2_0_0 : S3x400x400.Slices ![2, 0, 0] S1x400x400
  dot_S2000x400_S400x400_S2000x400_1_0_0_1_n_n_wf : DotDims.WF S2000x400 S400x400 S2000x400 [1] [0] [0] [1] [] []
  gather_S50000x400_S200000x1_S200000x400_1_0_n_n_0_1_1400_wf : GatherDims.WF S50000x400 S200000x1 S200000x400 [1] [0] [] [0] [] 1 ![1, 400]
  scatter_S50000x400_S200000x1_S200000x400_1_0_0_1_wf : ScatterDims.WF S50000x400 S200000x1 S200000x400 [1] [0] [0] 1
  dot_S400x400_S400x1200_S400x1200_1_0_0_1_n_n_wf : DotDims.WF S400x400 S400x1200 S400x1200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x400.size a ≤ S50000x400.size a
  hwx0_0 : ∀ i : grid0.Coords, EltTy.bits .f32 = 32 ∨ (Rect.block (s := S50000x400) S2000x400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x400.size a ≤ S400x400.size a
  hwx0_1 : ∀ i : grid0.Coords, EltTy.bits .f32 = 32 ∨ (Rect.block (s := S400x400) S400x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x400.size a ≤ S50000x400.size a
  hwx0_2 : ∀ i : grid0.Coords, EltTy.bits .f32 = 32 ∨ (Rect.block (s := S50000x400) S2000x400.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x400.size a ≤ S50000x400.size a
  hwx1_0 : ∀ i : grid1.Coords, EltTy.bits .f32 = 32 ∨ (Rect.block (s := S50000x400) S400x400.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x400.size a ≤ S50000x400.size a
  hwx1_1 : ∀ i : grid1.Coords, EltTy.bits .f32 = 32 ∨ (Rect.block (s := S50000x400) S400x400.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S400x1200.size a ≤ S400x1200.size a
  hwx1_2 : ∀ i : grid1.Coords, EltTy.bits .f32 = 32 ∨ (Rect.block (s := S400x1200) S400x1200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S400x1200.size a ≤ S400x1200.size a
  hwx1_3 : ∀ i : grid1.Coords, EltTy.bits .f32 = 32 ∨ (Rect.block (s := S400x1200) S400x1200.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1200.size a ≤ S1x1200.size a
  hwx1_4 : ∀ i : grid1.Coords, EltTy.bits .f32 = 32 ∨ (Rect.block (s := S1x1200) S1x1200.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1200.size a ≤ S1x1200.size a
  hwx1_5 : ∀ i : grid1.Coords, EltTy.bits .f32 = 32 ∨ (Rect.block (s := S1x1200) S1x1200.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x400.size a ≤ S50000x400.size a
  hwx1_6 : ∀ i : grid1.Coords, EltTy.bits .f32 = 32 ∨ (Rect.block (s := S50000x400) S400x400.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x400.size a ≤ S50000x400.size a
  hwx2_0 : ∀ i : grid2.Coords, EltTy.bits .f32 = 32 ∨ (Rect.block (s := S50000x400) S2000x400.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S400x400.size a ≤ S400x400.size a
  hwx2_1 : ∀ i : grid2.Coords, EltTy.bits .f32 = 32 ∨ (Rect.block (s := S400x400) S400x400.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x400.size a ≤ S50000x400.size a
  hwx2_2 : ∀ i : grid2.Coords, EltTy.bits .f32 = 32 ∨ (Rect.block (s := S50000x400) S2000x400.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x400.size a ≤ S50000x400.size a
  hwx3_0 : ∀ i : grid3.Coords, EltTy.bits .f32 = 32 ∨ (Rect.block (s := S50000x400) S400x400.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x400.size a ≤ S50000x400.size a
  hwx3_1 : ∀ i : grid3.Coords, EltTy.bits .f32 = 32 ∨ (Rect.block (s := S50000x400) S400x400.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S400x1200.size a ≤ S400x1200.size a
  hwx3_2 : ∀ i : grid3.Coords, EltTy.bits .f32 = 32 ∨ (Rect.block (s := S400x1200) S400x1200.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S400x1200.size a ≤ S400x1200.size a
  hwx3_3 : ∀ i : grid3.Coords, EltTy.bits .f32 = 32 ∨ (Rect.block (s := S400x1200) S400x1200.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1200.size a ≤ S1x1200.size a
  hwx3_4 : ∀ i : grid3.Coords, EltTy.bits .f32 = 32 ∨ (Rect.block (s := S1x1200) S1x1200.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1200.size a ≤ S1x1200.size a
  hwx3_5 : ∀ i : grid3.Coords, EltTy.bits .f32 = 32 ∨ (Rect.block (s := S1x1200) S1x1200.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S400x400.size a ≤ S50000x400.size a
  hwx3_6 : ∀ i : grid3.Coords, EltTy.bits .f32 = 32 ∨ (Rect.block (s := S50000x400) S400x400.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x400.size a ≤ S50000x400.size a
  hwx4_0 : ∀ i : grid4.Coords, EltTy.bits .f32 = 32 ∨ (Rect.block (s := S50000x400) S2000x400.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S400x400.size a ≤ S400x400.size a
  hwx4_1 : ∀ i : grid4.Coords, EltTy.bits .f32 = 32 ∨ (Rect.block (s := S400x400) S400x400.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x400.size a ≤ S50000x400.size a
  hwx4_2 : ∀ i : grid4.Coords, EltTy.bits .f32 = 32 ∨ (Rect.block (s := S50000x400) S2000x400.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x400.size a ≤ S50000x400.size a
  hwx5_0 : ∀ i : grid5.Coords, EltTy.bits .f32 = 32 ∨ (Rect.block (s := S50000x400) S400x400.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S400x400.size a ≤ S50000x400.size a
  hwx5_1 : ∀ i : grid5.Coords, EltTy.bits .f32 = 32 ∨ (Rect.block (s := S50000x400) S400x400.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S400x1200.size a ≤ S400x1200.size a
  hwx5_2 : ∀ i : grid5.Coords, EltTy.bits .f32 = 32 ∨ (Rect.block (s := S400x1200) S400x1200.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S400x1200.size a ≤ S400x1200.size a
  hwx5_3 : ∀ i : grid5.Coords, EltTy.bits .f32 = 32 ∨ (Rect.block (s := S400x1200) S400x1200.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1200.size a ≤ S1x1200.size a
  hwx5_4 : ∀ i : grid5.Coords, EltTy.bits .f32 = 32 ∨ (Rect.block (s := S1x1200) S1x1200.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1200.size a ≤ S1x1200.size a
  hwx5_5 : ∀ i : grid5.Coords, EltTy.bits .f32 = 32 ∨ (Rect.block (s := S1x1200) S1x1200.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S400x400.size a ≤ S50000x400.size a
  hwx5_6 : ∀ i : grid5.Coords, EltTy.bits .f32 = 32 ∨ (Rect.block (s := S50000x400) S400x400.size (cc5_transform_6 i) (hinb5_6 i)).WholeWords (EltTy.packing .f32)

variable [Facts₀]

def dot_S2000x400_S400x400_S2000x400_1_0_0_1_n_n : DotDims S2000x400 S400x400 S2000x400 where
  lhsContracting := [1]
  rhsContracting := [0]
  lhsNonContracting := [0]
  rhsNonContracting := [1]
  lhsBatch := []
  rhsBatch := []
  wf := dot_S2000x400_S400x400_S2000x400_1_0_0_1_n_n_wf
def gather_S50000x400_S200000x1_S200000x400_1_0_n_n_0_1_1400 : GatherDims S50000x400 S200000x1 S200000x400 where
  offsetDims := [1]
  collapsedSliceDims := [0]
  operandBatchingDims := []
  startIndicesBatchingDims := []
  startIndexMap := [0]
  indexVectorDim := 1
  sliceSizes := ![1, 400]
  wf := gather_S50000x400_S200000x1_S200000x400_1_0_n_n_0_1_1400_wf
def scatter_S50000x400_S200000x1_S200000x400_1_0_0_1 : ScatterDims S50000x400 S200000x1 S200000x400 where
  updateWindowDims := [1]
  insertedWindowDims := [0]
  scatterDimsToOperandDims := [0]
  indexVectorDim := 1
  wf := scatter_S50000x400_S200000x1_S200000x400_1_0_0_1_wf
def dot_S400x400_S400x1200_S400x1200_1_0_0_1_n_n : DotDims S400x400 S400x1200 S400x1200 where
  lhsContracting := [1]
  rhsContracting := [0]
  lhsNonContracting := [0]
  rhsNonContracting := [1]
  lhsBatch := []
  rhsBatch := []
  wf := dot_S400x400_S400x1200_S400x1200_1_0_0_1_n_n_wf

abbrev win0_0 : Pipeline.Window sig grid0 :=
  Pipeline.Window.ofSpec (Memref.whole main_arg0) S2000x400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S400x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x400.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S400x400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S400x400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S400x1200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x1200.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1200.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1200.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S400x400.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x400.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S400x400.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x400.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S400x400.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S400x400.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x1200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v5) S400x1200.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v6) S1x1200.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S1x1200.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v35) S400x400.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v35) S2000x400.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v37) S400x400.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v38) S2000x400.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v48) S400x400.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v35) S400x400.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v4) S400x1200.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S400x1200.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v6) S1x1200.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v7) S1x1200.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v49) S400x400.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x400 : Shape := ⟨2, ![50000, 400]⟩
abbrev S3x400x400 : Shape := ⟨3, ![3, 400, 400]⟩
abbrev S1200x400 : Shape := ⟨2, ![1200, 400]⟩
abbrev S1200 : Shape := ⟨1, ![1200]⟩
abbrev S2x200000 : Shape := ⟨2, ![2, 200000]⟩
abbrev S50000 : Shape := ⟨1, ![50000]⟩
abbrev S1x200000 : Shape := ⟨2, ![1, 200000]⟩
abbrev S200000 : Shape := ⟨1, ![200000]⟩
abbrev S1x400x400 : Shape := ⟨3, ![1, 400, 400]⟩
abbrev S400x400 : Shape := ⟨2, ![400, 400]⟩
abbrev S_ : Shape := ⟨0, ![]⟩
abbrev S200000x1 : Shape := ⟨2, ![200000, 1]⟩
abbrev S200000x400 : Shape := ⟨2, ![200000, 400]⟩
abbrev S400x1200 : Shape := ⟨2, ![400, 1200]⟩
abbrev S50000x1200 : Shape := ⟨2, ![50000, 1200]⟩
abbrev S1x1200 : Shape := ⟨2, ![1, 1200]⟩

abbrev nBuf : Space → Nat
  | .hbm => 189
  | .vmem => 0
  | .smem => 0
  | _ => 0

abbrev hbmTy0_0 (i : Nat) : BufTy := match i % 128 with
  | 0 => ⟨S50000x400, .f32⟩
  | 1 => ⟨S3x400x400, .f32⟩
  | 2 => ⟨S1200x400, .f32⟩
  | 3 => ⟨S1200x400, .f32⟩
  | 4 => ⟨S1200, .f32⟩
  | 5 => ⟨S1200, .f32⟩
  | 6 => ⟨S2x200000, .i32⟩
  | 7 => ⟨S50000, .i32⟩
  | 8 => ⟨S1x200000, .i32⟩
  | 9 => ⟨S200000, .i32⟩
  | 10 => ⟨S1x200000, .i32⟩
  | 11 => ⟨S200000, .i32⟩
  | 12 => ⟨S1x400x400, .f32⟩
  | 13 => ⟨S400x400, .f32⟩
  | 14 => ⟨S50000x400, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x400, .f32⟩
  | 24 => ⟨S_, .f32⟩
  | 25 => ⟨S50000x400, .f32⟩
  | 26 => ⟨S200000x1, .i32⟩
  | 27 => ⟨S50000x400, .f32⟩
  | 28 => ⟨S400x1200, .f32⟩
  | 29 => ⟨S50000x1200, .f32⟩
  | 30 => ⟨S1x1200, .f32⟩
  | 31 => ⟨S50000x1200, .f32⟩
  | 32 => ⟨S50000x1200, .f32⟩
  | 33 => ⟨S400x1200, .f32⟩
  | 34 => ⟨S50000x1200, .f32⟩
  | 35 => ⟨S1x1200, .f32⟩
  | 36 => ⟨S50000x1200, .f32⟩
  | 37 => ⟨S50000x1200, .f32⟩
  | 38 => ⟨S50000x400, .f32⟩
  | 39 => ⟨S50000x400, .f32⟩
  | 40 => ⟨S50000x400, .f32⟩
  | 41 => ⟨S50000x400, .f32⟩
  | 42 => ⟨S50000x400, .f32⟩
  | 43 => ⟨S50000x400, .f32⟩
  | 44 => ⟨S50000x400, .f32⟩
  | 45 => ⟨S50000x400, .f32⟩
  | 46 => ⟨S50000x400, .f32⟩
  | 47 => ⟨S_, .f32⟩
  | 48 => ⟨S50000x400, .f32⟩
  | 49 => ⟨S50000x400, .f32⟩
  | 50 => ⟨S_, .f32⟩
  | 51 => ⟨S50000x400, .f32⟩
  | 52 => ⟨S50000x400, .f32⟩
  | 53 => ⟨S50000x400, .f32⟩
  | 54 => ⟨S50000x400, .f32⟩
  | 55 => ⟨S50000x400, .f32⟩
  | 56 => ⟨S_, .f32⟩
  | 57 => ⟨S50000x400, .f32⟩
  | 58 => ⟨S50000x400, .f32⟩
  | 59 => ⟨S_, .f32⟩
  | 60 => ⟨S50000x400, .f32⟩
  | 61 => ⟨S50000x400, .f32⟩
  | 62 => ⟨S50000x400, .f32⟩
  | 63 => ⟨S50000x400, .f32⟩
  | 64 => ⟨S50000x400, .f32⟩
  | 65 => ⟨S_, .f32⟩
  | 66 => ⟨S50000x400, .f32⟩
  | 67 => ⟨S50000x400, .f32⟩
  | 68 => ⟨S50000x400, .f32⟩
  | 69 => ⟨S50000x400, .f32⟩
  | 70 => ⟨S50000x400, .f32⟩
  | 71 => ⟨S1x400x400, .f32⟩
  | 72 => ⟨S400x400, .f32⟩
  | 73 => ⟨S50000x400, .f32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S200000x400, .f32⟩
  | 83 => ⟨S_, .f32⟩
  | 84 => ⟨S50000x400, .f32⟩
  | 85 => ⟨S200000x1, .i32⟩
  | 86 => ⟨S50000x400, .f32⟩
  | 87 => ⟨S400x1200, .f32⟩
  | 88 => ⟨S50000x1200, .f32⟩
  | 89 => ⟨S1x1200, .f32⟩
  | 90 => ⟨S50000x1200, .f32⟩
  | 91 => ⟨S50000x1200, .f32⟩
  | 92 => ⟨S400x1200, .f32⟩
  | 93 => ⟨S50000x1200, .f32⟩
  | 94 => ⟨S1x1200, .f32⟩
  | 95 => ⟨S50000x1200, .f32⟩
  | 96 => ⟨S50000x1200, .f32⟩
  | 97 => ⟨S50000x400, .f32⟩
  | 98 => ⟨S50000x400, .f32⟩
  | 99 => ⟨S50000x400, .f32⟩
  | 100 => ⟨S50000x400, .f32⟩
  | 101 => ⟨S50000x400, .f32⟩
  | 102 => ⟨S50000x400, .f32⟩
  | 103 => ⟨S50000x400, .f32⟩
  | 104 => ⟨S50000x400, .f32⟩
  | 105 => ⟨S50000x400, .f32⟩
  | 106 => ⟨S_, .f32⟩
  | 107 => ⟨S50000x400, .f32⟩
  | 108 => ⟨S50000x400, .f32⟩
  | 109 => ⟨S_, .f32⟩
  | 110 => ⟨S50000x400, .f32⟩
  | 111 => ⟨S50000x400, .f32⟩
  | 112 => ⟨S50000x400, .f32⟩
  | 113 => ⟨S50000x400, .f32⟩
  | 114 => ⟨S50000x400, .f32⟩
  | 115 => ⟨S_, .f32⟩
  | 116 => ⟨S50000x400, .f32⟩
  | 117 => ⟨S50000x400, .f32⟩
  | 118 => ⟨S_, .f32⟩
  | 119 => ⟨S50000x400, .f32⟩
  | 120 => ⟨S50000x400, .f32⟩
  | 121 => ⟨S50000x400, .f32⟩
  | 122 => ⟨S50000x400, .f32⟩
  | 123 => ⟨S50000x400, .f32⟩
  | 124 => ⟨S_, .f32⟩
  | 125 => ⟨S50000x400, .f32⟩
  | 126 => ⟨S50000x400, .f32⟩
  | 127 => ⟨S50000x400, .f32⟩
  | _ => ⟨S50000x400, .f32⟩

abbrev hbmTy0_1 (i : Nat) : BufTy := match i % 128 with
  | 0 => ⟨S50000x400, .f32⟩
  | 1 => ⟨S50000x400, .f32⟩
  | 2 => ⟨S1x400x400, .f32⟩
  | 3 => ⟨S400x400, .f32⟩
  | 4 => ⟨S50000x400, .f32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x400, .f32⟩
  | 14 => ⟨S_, .f32⟩
  | 15 => ⟨S50000x400, .f32⟩
  | 16 => ⟨S200000x1, .i32⟩
  | 17 => ⟨S50000x400, .f32⟩
  | 18 => ⟨S400x1200, .f32⟩
  | 19 => ⟨S50000x1200, .f32⟩
  | 20 => ⟨S1x1200, .f32⟩
  | 21 => ⟨S50000x1200, .f32⟩
  | 22 => ⟨S50000x1200, .f32⟩
  | 23 => ⟨S400x1200, .f32⟩
  | 24 => ⟨S50000x1200, .f32⟩
  | 25 => ⟨S1x1200, .f32⟩
  | 26 => ⟨S50000x1200, .f32⟩
  | 27 => ⟨S50000x1200, .f32⟩
  | 28 => ⟨S50000x400, .f32⟩
  | 29 => ⟨S50000x400, .f32⟩
  | 30 => ⟨S50000x400, .f32⟩
  | 31 => ⟨S50000x400, .f32⟩
  | 32 => ⟨S50000x400, .f32⟩
  | 33 => ⟨S50000x400, .f32⟩
  | 34 => ⟨S50000x400, .f32⟩
  | 35 => ⟨S50000x400, .f32⟩
  | 36 => ⟨S50000x400, .f32⟩
  | 37 => ⟨S_, .f32⟩
  | 38 => ⟨S50000x400, .f32⟩
  | 39 => ⟨S50000x400, .f32⟩
  | 40 => ⟨S_, .f32⟩
  | 41 => ⟨S50000x400, .f32⟩
  | 42 => ⟨S50000x400, .f32⟩
  | 43 => ⟨S50000x400, .f32⟩
  | 44 => ⟨S50000x400, .f32⟩
  | 45 => ⟨S50000x400, .f32⟩
  | 46 => ⟨S_, .f32⟩
  | 47 => ⟨S50000x400, .f32⟩
  | 48 => ⟨S50000x400, .f32⟩
  | 49 => ⟨S_, .f32⟩
  | 50 => ⟨S50000x400, .f32⟩
  | 51 => ⟨S50000x400, .f32⟩
  | 52 => ⟨S50000x400, .f32⟩
  | 53 => ⟨S50000x400, .f32⟩
  | 54 => ⟨S50000x400, .f32⟩
  | 55 => ⟨S_, .f32⟩
  | 56 => ⟨S50000x400, .f32⟩
  | 57 => ⟨S50000x400, .f32⟩
  | 58 => ⟨S50000x400, .f32⟩
  | 59 => ⟨S50000x400, .f32⟩
  | 60 => ⟨S50000x400, .f32⟩
  | _ => ⟨S50000x400, .f32⟩

abbrev hbmTy (i : Nat) : BufTy := match i / 128 with
  | 0 => hbmTy0_0 i
  | 1 => hbmTy0_1 i
  | _ => ⟨S50000x400, .f32⟩

abbrev bufTy : (tb : Table) → Fin (tcTables nBuf tb) → BufTy
  | .hbm, ⟨i, _⟩ => hbmTy i
  | _, _ => ⟨S50000x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_6 : Ref sig .tc := ⟨.hbm, 74, rfl⟩
abbrev main_v58 : Ref sig .tc := ⟨.hbm, 75, rfl⟩
abbrev main_v59 : Ref sig .tc := ⟨.hbm, 76, rfl⟩
abbrev main_c_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_9 : Ref sig .tc := ⟨.hbm, 106, rfl⟩
abbrev main_v87 : Ref sig .tc := ⟨.hbm, 107, rfl⟩
abbrev main_v88 : Ref sig .tc := ⟨.hbm, 108, rfl⟩
abbrev main_cst_10 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_11 : Ref sig .tc := ⟨.hbm, 115, rfl⟩
abbrev main_v94 : Ref sig .tc := ⟨.hbm, 116, rfl⟩
abbrev main_v95 : Ref sig .tc := ⟨.hbm, 117, rfl⟩
abbrev main_cst_12 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_13 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_c_14 : Ref sig .tc := ⟨.hbm, 133, rfl⟩
abbrev main_v109 : Ref sig .tc := ⟨.hbm, 134, rfl⟩
abbrev main_v110 : Ref sig .tc := ⟨.hbm, 135, rfl⟩
abbrev main_c_15 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_cst_16 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_17 : Ref sig .tc := ⟨.hbm, 165, rfl⟩
abbrev main_v138 : Ref sig .tc := ⟨.hbm, 166, rfl⟩
abbrev main_v139 : Ref sig .tc := ⟨.hbm, 167, rfl⟩
abbrev main_cst_18 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_19 : Ref sig .tc := ⟨.hbm, 174, rfl⟩
abbrev main_v145 : Ref sig .tc := ⟨.hbm, 175, rfl⟩
abbrev main_v146 : Ref sig .tc := ⟨.hbm, 176, rfl⟩
abbrev main_cst_20 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_21 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  slices_S2x200000_S1x200000_1_0 : S2x200000.Slices ![1, 0] S1x200000
  slices_S3x400x400_S1x400x400_0_0_0 : S3x400x400.Slices ![0, 0, 0] S1x400x400
  shapeCasts_S1x400x400_S400x400 : S1x400x400.ShapeCasts S400x400
  bcast_S_S200000 : S_.BroadcastsInDim S200000 (![] : Fin 0 → Fin S200000.rank)
  bcast_S200000_S200000x1_0 : S200000.BroadcastsInDim S200000x1 (![0] : Fin 1 → Fin S200000x1.rank)
  bcast_S_S50000x400 : S_.BroadcastsInDim S50000x400 (![] : Fin 0 → Fin S50000x400.rank)
  transposes_S1200x400_S400x1200_1_0 : S1200x400.Transposes [1, 0] S400x1200
  bcast_S1200_S1x1200_1 : S1200.BroadcastsInDim S1x1200 (![1] : Fin 1 → Fin S1x1200.rank)
  bcast_S1x1200_S50000x1200_0_1 : S1x1200.BroadcastsInDim S50000x1200 (![0, 1] : Fin 2 → Fin S50000x1200.rank)
  slices_S50000x1200_S50000x400_0_0 : S50000x1200.Slices ![0, 0] S50000x400
  slices_S50000x1200_S50000x400_0_400 : S50000x1200.Slices ![0, 400] S50000x400
  slices_S50000x1200_S50000x400_0_800 : S50000x1200.Slices ![0, 800] S50000x400
  slices_S3x400x400_S1x400x400_1_0_0 : S3x400x400.Slices ![1, 0, 0] S1x400x400
  slices_S3x400x400_S1x400x400_2_0_0 : S3x400x400.Slices ![2, 0, 0] S1x400x400
  dot_S50000x400_S400x400_S50000x400_1_0_0_1_n_n_wf : DotDims.WF S50000x400 S400x400 S50000x400 [1] [0] [0] [1] [] []
  gather_S50000x400_S200000x1_S200000x400_1_0_n_n_0_1_1400_wf : GatherDims.WF S50000x400 S200000x1 S200000x400 [1] [0] [] [0] [] 1 ![1, 400]
  scatter_S50000x400_S200000x1_S200000x400_1_0_0_1_wf : ScatterDims.WF S50000x400 S200000x1 S200000x400 [1] [0] [0] 1
  dot_S50000x400_S400x1200_S50000x1200_1_0_0_1_n_n_wf : DotDims.WF S50000x400 S400x1200 S50000x1200 [1] [0] [0] [1] [] []

variable [Facts₀]

def dot_S50000x400_S400x400_S50000x400_1_0_0_1_n_n : DotDims S50000x400 S400x400 S50000x400 where
  lhsContracting := [1]
  rhsContracting := [0]
  lhsNonContracting := [0]
  rhsNonContracting := [1]
  lhsBatch := []
  rhsBatch := []
  wf := dot_S50000x400_S400x400_S50000x400_1_0_0_1_n_n_wf
def gather_S50000x400_S200000x1_S200000x400_1_0_n_n_0_1_1400 : GatherDims S50000x400 S200000x1 S200000x400 where
  offsetDims := [1]
  collapsedSliceDims := [0]
  operandBatchingDims := []
  startIndicesBatchingDims := []
  startIndexMap := [0]
  indexVectorDim := 1
  sliceSizes := ![1, 400]
  wf := gather_S50000x400_S200000x1_S200000x400_1_0_n_n_0_1_1400_wf
def scatter_S50000x400_S200000x1_S200000x400_1_0_0_1 : ScatterDims S50000x400 S200000x1 S200000x400 where
  updateWindowDims := [1]
  insertedWindowDims := [0]
  scatterDimsToOperandDims := [0]
  indexVectorDim := 1
  wf := scatter_S50000x400_S200000x1_S200000x400_1_0_0_1_wf
def dot_S50000x400_S400x1200_S50000x1200_1_0_0_1_n_n : DotDims S50000x400 S400x1200 S50000x1200 where
  lhsContracting := [1]
  rhsContracting := [0]
  lhsNonContracting := [0]
  rhsNonContracting := [1]
  lhsBatch := []
  rhsBatch := []
  wf := dot_S50000x400_S400x1200_S50000x1200_1_0_0_1_n_n_wf

class Facts : Prop extends Facts₀ where

variable [Facts]
-- ==== Proof.KRun.lean ====
/-
  The idealized kernel's run with its result named.

  @main is twelve segments: six stretches of host operations and six pipelined regions. The buffer contents at the
  segments' boundaries are a fold from the launch memory (`W0` … `W12`); every weakly fair execution terminates with
  every unscoped buffer at the last boundary's contents. Read at the result buffer this names the result, `W12` at the
  last region's output array; read at the arguments it gives them back as launched.
-/
import proofs.«168568_j25494925869146_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_main : θ_run defs (onTc (τ := τ) (main (F := F))) ⟨m, fun _ => 0, ρ⟩ (fun r => ∀ c : Dev nD,
      r.2.mem ((c.tc : Thread nD τ).loc main_v49) = W12 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v49 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Run

end
-- ==== Proof.Spec.lean ====
/-
  The gated graph layer as plain functions of arrays, at the extended reals.

  One layer takes the node states `h` (one row of 400 numbers per node), multiplies every row by a 400 x 400 matrix
  (`linAt`), sums the products' rows over the edges into the target nodes (done by the host's gather and scatter-add,
  not spelt here), and feeds the sums `agg` and the old states `h` to a gated recurrent cell (`gruAt`):
  with `gi = agg · A + bi` and `gh = h · B + bh` (rows of 1200 numbers, read in three stretches of 400),
  `r = σ(gi₀ + gh₀)`, `z = σ(gi₁ + gh₁)`, `n = tanh(gi₂ + r · gh₂)` and the new state is `(1 - z) · n + z · h`.
  The functions are stated for any number of rows, so that one formula serves a block of rows and the whole array.
-/
import Idealize.ShloMosaic.PureOps.Ideal
import Idealize.ShloMosaic.Lib.ValueIdx

noncomputable section

namespace Cert.Gnn

open Idealize.ShloMosaic Idealize.ShloMosaic.ValueIdx
open scoped BigOperators

/-- Column `q` of the first, second and third stretch of a row of 1200. -/
def c0 (q : Fin 400) : Fin 1200 := ⟨q.val, by have := q.isLt; omega⟩
def c1 (q : Fin 400) : Fin 1200 := ⟨400 + q.val, by have := q.isLt; omega⟩
def c2 (q : Fin 400) : Fin 1200 := ⟨800 + q.val, by have := q.isLt; omega⟩

/-- Row `p` of `x` times column `q` of `W`. -/
def linAt {M : ℕ} (x : (⟨2, ![M, 400]⟩ : Shape).Idx → EReal) (W : (⟨2, ![400, 400]⟩ : Shape).Idx → EReal)
    (p : Fin M) (q : Fin 400) : EReal :=
  ∑ k : Fin 400, x (ix2 p k) * W (ix2 k q)

/-- The product array. -/
def lin {M : ℕ} (x : (⟨2, ![M, 400]⟩ : Shape).Idx → EReal) (W : (⟨2, ![400, 400]⟩ : Shape).Idx → EReal) :
    (⟨2, ![M, 400]⟩ : Shape).Idx → EReal :=
  fun i => linAt x W (i 0) (i 1)

/-- Entry `(p, j)` of `x · A + b`, the bias `b` one row repeated over the rows. -/
def denseAt {M : ℕ} (x : (⟨2, ![M, 400]⟩ : Shape).Idx → EReal) (A : (⟨2, ![400, 1200]⟩ : Shape).Idx → EReal)
    (b : (⟨2, ![1, 1200]⟩ : Shape).Idx → EReal) (p : Fin M) (j : Fin 1200) : EReal :=
  (∑ k : Fin 400, x (ix2 p k) * A (ix2 k j)) + b (ix2 (0 : Fin 1) j)

/-- The gated cell on numbers: the three stretches of the two dense rows, and the old state. -/
def cell (ir iz inn hr hz hn h : EReal) : EReal :=
  (Ideal.ofBits .f32 0x3F800000#32 - Ideal.logistic (iz + hz)) * Ideal.tanh (inn + Ideal.logistic (ir + hr) * hn)
    + Ideal.logistic (iz + hz) * h

/-- The new state of node `p`, entry `q`. -/
def gruAt {M : ℕ} (agg h : (⟨2, ![M, 400]⟩ : Shape).Idx → EReal) (A B : (⟨2, ![400, 1200]⟩ : Shape).Idx → EReal)
    (bi bh : (⟨2, ![1, 1200]⟩ : Shape).Idx → EReal) (p : Fin M) (q : Fin 400) : EReal :=
  cell (denseAt agg A bi p (c0 q)) (denseAt agg A bi p (c1 q)) (denseAt agg A bi p (c2 q))
    (denseAt h B bh p (c0 q)) (denseAt h B bh p (c1 q)) (denseAt h B bh p (c2 q)) (h (ix2 p q))

/-- The array of new states. -/
def gru {M : ℕ} (agg h : (⟨2, ![M, 400]⟩ : Shape).Idx → EReal) (A B : (⟨2, ![400, 1200]⟩ : Shape).Idx → EReal)
    (bi bh : (⟨2, ![1, 1200]⟩ : Shape).Idx → EReal) : (⟨2, ![M, 400]⟩ : Shape).Idx → EReal :=
  fun i => gruAt agg h A B bi bh (i 0) (i 1)

theorem lin_apply {M : ℕ} (x : (⟨2, ![M, 400]⟩ : Shape).Idx → EReal) (W : (⟨2, ![400, 400]⟩ : Shape).Idx → EReal)
    (p : Fin M) (q : Fin 400) : lin x W (ix2 p q) = linAt x W p q := rfl

theorem gru_apply {M : ℕ} (agg h : (⟨2, ![M, 400]⟩ : Shape).Idx → EReal) (A B : (⟨2, ![400, 1200]⟩ : Shape).Idx → EReal)
    (bi bh : (⟨2, ![1, 1200]⟩ : Shape).Idx → EReal) (p : Fin M) (q : Fin 400) :
    gru agg h A B bi bh (ix2 p q) = gruAt agg h A B bi bh p q := rfl

/-- The float word of one is the number one. -/
theorem one_word : Ideal.ofBits .f32 0x3F800000#32 = 1 := by simp [Ideal.ofBits, Ideal.ieee, -EReal.coe_mul]; norm_num

end Cert.Gnn

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.Pay.lean ====
/-
  What each kernel body stores, read at coordinates, at the extended reals.

  A linear body loads a block of 2000 rows and the whole 400 x 400 matrix and stores their product: entry (p, q) of the
  store is the sum over k of block(p, k) · W(k, q) — the conversions to the narrow float format are the identity here.
  A gated-cell body loads a block of 400 rows of the edge sums and of the old states, the two 400 x 1200 matrices and the
  two bias rows, forms the two dense rows (a product plus the bias row repeated over the rows), cuts each into three
  stretches of 400 columns and combines them entry by entry: entry (p, q) of the store is `gruAt` of the loads.
-/
import proofs.«168568_j25494925869146_1_alg».proof.Proof.Gen.KernelIdeal.Skeleton
import proofs.«168568_j25494925869146_1_alg».proof.Proof.Spec
import proofs.«168568_j25494925869146_1_alg».proof.Proof.LibPlainDot
import proofs.«168568_j25494925869146_1_alg».proof.Proof.LibColsCut
import Idealize.ShloMosaic.Lib.ValueLayout
import Idealize.ShloMosaic.Lib.Pipeline.Value

noncomputable section

namespace Cert.Gnn

open Idealize.ShloMosaic Idealize.ShloMosaic.ValueIdx Cert.KernelIdeal Cert.KernelIdeal.Gen Cert.LibColsCut
open scoped BigOperators

/-- The entrywise part of the cell: from the two dense arrays (rows of 1200) and the old states to the new state. -/
theorem cell_of_dense {M : ℕ} (gi gh : FVec Ideal ⟨2, ![M, 1200]⟩ .f32) (h : FVec Ideal ⟨2, ![M, 400]⟩ .f32)
    (s0 : (⟨2, ![M, 1200]⟩ : Shape).Slices ![0, 0] ⟨2, ![M, 400]⟩)
    (s1 : (⟨2, ![M, 1200]⟩ : Shape).Slices ![0, 400] ⟨2, ![M, 400]⟩)
    (s2 : (⟨2, ![M, 1200]⟩ : Shape).Slices ![0, 800] ⟨2, ![M, 400]⟩) (p : Fin M) (q : Fin 400) :
    addf (mulf (subf (broadcast ⟨2, ![M, 400]⟩ (Scalar.ofBits (F := Ideal) .f32 0x3F800000#32))
            (logistic (addf (extractStridedSlice ⟨2, ![M, 400]⟩ ![0, 400] gi s1) (extractStridedSlice ⟨2, ![M, 400]⟩ ![0, 400] gh s1))))
          (tanh (addf (extractStridedSlice ⟨2, ![M, 400]⟩ ![0, 800] gi s2)
            (mulf (logistic (addf (extractStridedSlice ⟨2, ![M, 400]⟩ ![0, 0] gi s0) (extractStridedSlice ⟨2, ![M, 400]⟩ ![0, 0] gh s0)))
              (extractStridedSlice ⟨2, ![M, 400]⟩ ![0, 800] gh s2)))))
        (mulf (logistic (addf (extractStridedSlice ⟨2, ![M, 400]⟩ ![0, 400] gi s1) (extractStridedSlice ⟨2, ![M, 400]⟩ ![0, 400] gh s1))) h)
        (ix2 p q)
      = cell (gi (ix2 p (c0 q))) (gi (ix2 p (c1 q))) (gi (ix2 p (c2 q))) (gh (ix2 p (c0 q))) (gh (ix2 p (c1 q)))
          (gh (ix2 p (c2 q))) (h (ix2 p q)) := by
  rw [← slice_cols 0 gi s0 p q (c0 q) (by show q.val = 0 + q.val; omega), ← slice_cols 0 gh s0 p q (c0 q) (by show q.val = 0 + q.val; omega),
    ← slice_cols 400 gi s1 p q (c1 q) rfl, ← slice_cols 400 gh s1 p q (c1 q) rfl,
    ← slice_cols 800 gi s2 p q (c2 q) rfl, ← slice_cols 800 gh s2 p q (c2 q) rfl]
  rfl

/-- A block's dense rows: the product into a zero accumulator plus the bias row repeated over the 400 rows. -/
theorem dense_block {φ₁ φ₂ : FTy} (l : FVec Ideal S400x400 φ₁) (r : FVec Ideal S400x1200 φ₂) (b : FVec Ideal S1x1200 .f32)
    (p : Fin 400) (j : Fin 1200) :
    addf (matmul dot_S400x400_S400x1200_S400x1200_1_0_0_1_n_n none l r (constant S400x1200 .f32 0x00000000#32))
        (broadcastTo S400x1200 b broadcasts_S1x1200_S400x1200) (ix2 p j)
      = denseAt (fun i => l i) (fun i => r i) b p j := by
  unfold denseAt
  rw [addf_apply]
  exact congrArg₂ (· + ·)
    (Cert.LibPlainDot.matmul_plain_apply dot_S400x400_S400x1200_S400x1200_1_0_0_1_n_n rfl rfl rfl rfl rfl rfl none l r p j)
    (broadcastTo_1b_ab_apply b broadcasts_S1x1200_S400x1200 p j)

/-- The first linear body's store at (p, q). -/
theorem k0_pay1_apply (x0 : Vec Ideal S2000x400 .f32) (x1 : Vec Ideal S400x400 .f32) (p : Fin 2000) (q : Fin 400) :
    k0_pay1 (F := Ideal) x0 x1 (ix2 p q) = linAt x0 x1 p q := by
  unfold k0_pay1
  refine (Cert.LibPlainDot.matmul_plain_apply dot_S2000x400_S400x400_S2000x400_1_0_0_1_n_n rfl rfl rfl rfl rfl rfl none _ _ p q).trans ?_
  simp only [shapeCast_self]
  rfl

/-- The second linear body's store at (p, q). -/
theorem k2_pay1_apply (x0 : Vec Ideal S2000x400 .f32) (x1 : Vec Ideal S400x400 .f32) (p : Fin 2000) (q : Fin 400) :
    k2_pay1 (F := Ideal) x0 x1 (ix2 p q) = linAt x0 x1 p q := by
  unfold k2_pay1
  refine (Cert.LibPlainDot.matmul_plain_apply dot_S2000x400_S400x400_S2000x400_1_0_0_1_n_n rfl rfl rfl rfl rfl rfl none _ _ p q).trans ?_
  simp only [shapeCast_self]
  rfl

/-- The third linear body's store at (p, q). -/
theorem k4_pay1_apply (x0 : Vec Ideal S2000x400 .f32) (x1 : Vec Ideal S400x400 .f32) (p : Fin 2000) (q : Fin 400) :
    k4_pay1 (F := Ideal) x0 x1 (ix2 p q) = linAt x0 x1 p q := by
  unfold k4_pay1
  refine (Cert.LibPlainDot.matmul_plain_apply dot_S2000x400_S400x400_S2000x400_1_0_0_1_n_n rfl rfl rfl rfl rfl rfl none _ _ p q).trans ?_
  simp only [shapeCast_self]
  rfl

/-- The first gated-cell body's store at (p, q): the old states are loaded twice, once for the product and once for
    the last term. -/
theorem k1_pay1_apply (v0 v3 : Vec Ideal S400x400 .f32) (v5 v8 : Vec Ideal S400x1200 .f32) (v12 v18 : Vec Ideal S1x1200 .f32)
    (p q : Fin 400) :
    k1_pay1 (F := Ideal) v0 v3 v5 v8 v12 v18 v3 (ix2 p q) = gruAt v0 v3 v5 v8 v12 v18 p q := by
  unfold k1_pay1
  refine (cell_of_dense (M := 400) _ _ _ _ _ _ p q).trans ?_
  unfold gruAt
  rw [dense_block, dense_block, dense_block, dense_block, dense_block, dense_block]
  simp only [shapeCast_self]
  rfl

end Cert.Gnn

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«168568_j25494925869146_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.RefSide.lean ====
/-
  The reference's run, layer by layer, and each layer read at coordinates.

  The reference computes, three times over, the products of the node states with the layer's matrix, their sums over
  the edges, and the gated cell written out in the host's operations: two dense arrays (a product with a transposed
  matrix plus a bias row repeated over the rows), their three stretches of 400 columns, the two gates as
  1 / (1 + exp(-x)), the hyperbolic tangent, and the mix of candidate and old state. Read at a node p and an entry q this is
  `gruAt` of the edge sums, the old states, the transposed matrices and the bias rows: the host's quotient form of the
  gate is the logistic function, and the float word of one is the number one.
-/
import proofs.«168568_j25494925869146_1_alg».proof.Proof.Gen.ReferenceIdeal.Run
import proofs.«168568_j25494925869146_1_alg».proof.Proof.Pay
import proofs.«168568_j25494925869146_1_alg».proof.Proof.LibHostDense
import proofs.«168568_j25494925869146_1_alg».proof.Proof.LibRow

set_option maxRecDepth 16384

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.Value Cert.Gnn Cert.LibColsCut
open scoped BigOperators

/-- The host's aggregation of a node array over the edges: rows gathered at the sources (a negative source read from
    the end), each added into the zero array at its target. -/
def aggR (M : FVec Ideal S50000x400 .f32) (e1 e3 : IVec S200000 32) : FVec Ideal S50000x400 .f32 :=
  Host.scatterAdd scatter_S50000x400_S200000x1_S200000x400_1_0_0_1
    (broadcastInDim S50000x400 ![] bcast_S_S50000x400 (constant S_ .f32 0x00000000#32))
    (broadcastInDim S200000x1 ![0] bcast_S200000_S200000x1_0 e3)
    (Host.gather gather_S50000x400_S200000x1_S200000x400_1_0_n_n_0_1_1400 M
      (broadcastInDim S200000x1 ![0] bcast_S200000_S200000x1_0
        (select (cmpi .slt e1 (broadcastInDim S200000 ![] bcast_S_S200000 (constantI S_ 32 0#32)))
          (addi e1 (broadcastInDim S200000 ![] bcast_S_S200000 (constantI S_ 32 50000#32))) e1)))

/-- The array of ones. -/
def oneR : FVec Ideal S50000x400 .f32 := broadcastInDim S50000x400 ![] bcast_S_S50000x400 (constant S_ .f32 0x3F800000#32)

/-- A dense array: the product with the transposed matrix plus the bias laid out as a row and repeated over the rows. -/
def denseR (x : FVec Ideal S50000x400 .f32) (a : FVec Ideal S1200x400 .f32) (b : FVec Ideal S1200 .f32) : FVec Ideal S50000x1200 .f32 :=
  addf (Host.dotGeneral dot_S50000x400_S400x1200_S50000x1200_1_0_0_1_n_n none x (transpose S400x1200 [1, 0] a transposes_S1200x400_S400x1200_1_0))
    (broadcastInDim S50000x1200 ![0, 1] bcast_S1x1200_S50000x1200_0_1 (broadcastInDim S1x1200 ![1] bcast_S1200_S1x1200_1 b))

/-- The gate in the host's spelling: 1 / (1 + exp(-x)). -/
def sigR (x : FVec Ideal S50000x400 .f32) : FVec Ideal S50000x400 .f32 := Host.divf oneR (addf oneR (Host.exp (Host.negf x)))

/-- The entrywise part of the cell in the host's operations. -/
def cellR (gi gh : FVec Ideal S50000x1200 .f32) (h : FVec Ideal S50000x400 .f32) : FVec Ideal S50000x400 .f32 :=
  addf (mulf (subf oneR (sigR (addf (extractStridedSlice S50000x400 ![0, 400] gi slices_S50000x1200_S50000x400_0_400) (extractStridedSlice S50000x400 ![0, 400] gh slices_S50000x1200_S50000x400_0_400))))
      (Host.tanh (addf (extractStridedSlice S50000x400 ![0, 800] gi slices_S50000x1200_S50000x400_0_800)
        (mulf (sigR (addf (extractStridedSlice S50000x400 ![0, 0] gi slices_S50000x1200_S50000x400_0_0) (extractStridedSlice S50000x400 ![0, 0] gh slices_S50000x1200_S50000x400_0_0)))
          (extractStridedSlice S50000x400 ![0, 800] gh slices_S50000x1200_S50000x400_0_800)))))
    (mulf (sigR (addf (extractStridedSlice S50000x400 ![0, 400] gi slices_S50000x1200_S50000x400_0_400) (extractStridedSlice S50000x400 ![0, 400] gh slices_S50000x1200_S50000x400_0_400))) h)

/-- One layer of the reference. -/
def layerR (h : FVec Ideal S50000x400 .f32) (Wl : FVec Ideal S400x400 .f32) (e1 e3 : IVec S200000 32)
    (a2 a3 : FVec Ideal S1200x400 .f32) (a4 a5 : FVec Ideal S1200 .f32) : FVec Ideal S50000x400 .f32 :=
  cellR (denseR (aggR (Host.dotGeneral dot_S50000x400_S400x400_S50000x400_1_0_0_1_n_n none h Wl) e1 e3) a2 a4) (denseR h a3 a5) h

/-- The layer matrix cut from the stack. -/
def wslR (off : Fin 3 → ℕ) (hs : S3x400x400.Slices off S1x400x400) (a1 : FVec Ideal S3x400x400 .f32) : FVec Ideal S400x400 .f32 :=
  shapeCast S400x400 (extractStridedSlice S1x400x400 off a1 hs) shapeCasts_S1x400x400_S400x400

/-- The three layers on the arguments. -/
def netR (V0 : Valuation τ sig (Elt Ideal)) : FVec Ideal S50000x400 .f32 :=
  layerR (layerR (layerR (V0 (Proc.devRef .tc main_arg0)) (wslR ![0, 0, 0] slices_S3x400x400_S1x400x400_0_0_0 (V0 (Proc.devRef .tc main_arg1)))
        (res_main_v1 V0) (res_main_v3 V0) (V0 (Proc.devRef .tc main_arg2)) (V0 (Proc.devRef .tc main_arg3)) (V0 (Proc.devRef .tc main_arg4)) (V0 (Proc.devRef .tc main_arg5)))
      (wslR ![1, 0, 0] slices_S3x400x400_S1x400x400_1_0_0 (V0 (Proc.devRef .tc main_arg1)))
        (res_main_v1 V0) (res_main_v3 V0) (V0 (Proc.devRef .tc main_arg2)) (V0 (Proc.devRef .tc main_arg3)) (V0 (Proc.devRef .tc main_arg4)) (V0 (Proc.devRef .tc main_arg5)))
    (wslR ![2, 0, 0] slices_S3x400x400_S1x400x400_2_0_0 (V0 (Proc.devRef .tc main_arg1)))
      (res_main_v1 V0) (res_main_v3 V0) (V0 (Proc.devRef .tc main_arg2)) (V0 (Proc.devRef .tc main_arg3)) (V0 (Proc.devRef .tc main_arg4)) (V0 (Proc.devRef .tc main_arg5))

set_option maxRecDepth 65536 in
/-- The reference's run with its result as the three layers. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v156) = netR (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by
      unfold netR layerR cellR sigR denseR aggR oneR wslR res_main_v148 res_main_v123 res_main_v128 res_main_v105 res_main_v97
        res_main_v72 res_main_v77 res_main_v54 res_main_v46 res_main_v21 res_main_v26
      rfl), (h c).2⟩)
    (Cert.ReferenceIdeal.Value.run (F := Ideal) m ρ)

/-! ## One layer at coordinates -/

theorem oneR_apply (i : S50000x400.Idx) : oneR i = 1 :=
  (Cert.LibHostDense.bcastScalar_apply _ bcast_S_S50000x400 i).trans ((constant_apply _ _).trans one_word)

/-- The host's product of node states with a layer matrix is the product array. -/
theorem hostLin_eq (h : FVec Ideal S50000x400 .f32) (Wl : FVec Ideal S400x400 .f32) :
    Host.dotGeneral dot_S50000x400_S400x400_S50000x400_1_0_0_1_n_n none h Wl = lin h Wl := by
  funext i
  obtain ⟨p, q, rfl⟩ : ∃ (p : Fin 50000) (q : Fin 400), i = ix2 p q := ⟨i 0, i 1, eq_ix2 i⟩
  exact Cert.LibHostDense.hostDot_plain_apply dot_S50000x400_S400x400_S50000x400_1_0_0_1_n_n rfl rfl rfl rfl rfl rfl none h Wl p q

/-- A dense array at (p, j): the bias laid out by the host as a row is the bias cast to a row. -/
theorem denseR_apply (x : FVec Ideal S50000x400 .f32) (a : FVec Ideal S1200x400 .f32) (b : FVec Ideal S1200 .f32)
    (hc : S1200.ShapeCasts S1x1200) (p : Fin 50000) (j : Fin 1200) :
    denseR x a b (ix2 p j)
      = denseAt x (transpose S400x1200 [1, 0] a transposes_S1200x400_S400x1200_1_0) (shapeCast S1x1200 b hc) p j := by
  unfold denseR denseAt
  rw [addf_apply]
  exact congrArg₂ (· + ·)
    (Cert.LibHostDense.hostDot_plain_apply dot_S50000x400_S400x1200_S50000x1200_1_0_0_1_n_n rfl rfl rfl rfl rfl rfl none x _ p j)
    ((Cert.LibHostDense.bcastRows_apply _ bcast_S1x1200_S50000x1200_0_1 p j).trans
      ((Cert.LibHostDense.bcastRow_apply b bcast_S1200_S1x1200_1 (0 : Fin 1) j).trans (Cert.LibRow.row_apply b hc j).symm))

/-- The entrywise part at (p, q). -/
theorem cellR_apply (gi gh : FVec Ideal S50000x1200 .f32) (h : FVec Ideal S50000x400 .f32) (p : Fin 50000) (q : Fin 400) :
    cellR gi gh h (ix2 p q)
      = cell (gi (ix2 p (c0 q))) (gi (ix2 p (c1 q))) (gi (ix2 p (c2 q))) (gh (ix2 p (c0 q))) (gh (ix2 p (c1 q)))
          (gh (ix2 p (c2 q))) (h (ix2 p q)) := by
  rw [← slice_cols 0 gi slices_S50000x1200_S50000x400_0_0 p q (c0 q) (by show q.val = 0 + q.val; omega),
    ← slice_cols 0 gh slices_S50000x1200_S50000x400_0_0 p q (c0 q) (by show q.val = 0 + q.val; omega),
    ← slice_cols 400 gi slices_S50000x1200_S50000x400_0_400 p q (c1 q) rfl, ← slice_cols 400 gh slices_S50000x1200_S50000x400_0_400 p q (c1 q) rfl,
    ← slice_cols 800 gi slices_S50000x1200_S50000x400_0_800 p q (c2 q) rfl, ← slice_cols 800 gh slices_S50000x1200_S50000x400_0_800 p q (c2 q) rfl]
  unfold cellR sigR cell Ideal.logistic
  simp only [addf_apply, mulf_apply, subf_apply, Host.tanh, Host.divf, Host.exp, Host.negf, oneR_apply, one_word,
    Ideal.hostUnary_tanh_def, Ideal.hostDivf_def, Ideal.hostUnary_exp_def, Ideal.hostNegf_def, Ideal.negf_def]

/-- One layer of the reference is the gated cell on the edge sums of the product array. -/
theorem layerR_eq (h : FVec Ideal S50000x400 .f32) (Wl : FVec Ideal S400x400 .f32) (e1 e3 : IVec S200000 32)
    (a2 a3 : FVec Ideal S1200x400 .f32) (a4 a5 : FVec Ideal S1200 .f32) (hc : S1200.ShapeCasts S1x1200) :
    layerR h Wl e1 e3 a2 a3 a4 a5
      = gru (aggR (lin h Wl) e1 e3) h (transpose S400x1200 [1, 0] a2 transposes_S1200x400_S400x1200_1_0)
          (transpose S400x1200 [1, 0] a3 transposes_S1200x400_S400x1200_1_0) (shapeCast S1x1200 a4 hc) (shapeCast S1x1200 a5 hc) := by
  funext i
  obtain ⟨p, q, rfl⟩ : ∃ (p : Fin 50000) (q : Fin 400), i = ix2 p q := ⟨i 0, i 1, eq_ix2 i⟩
  unfold layerR
  rw [cellR_apply, gru_apply, hostLin_eq]
  unfold gruAt
  rw [denseR_apply _ _ _ hc, denseR_apply _ _ _ hc, denseR_apply _ _ _ hc, denseR_apply _ _ _ hc, denseR_apply _ _ _ hc, denseR_apply _ _ _ hc]

end Cert.ReferenceIdeal.RefValue

end
-- ==== Proof.RegLin0.lean ====
/-
  Linear region 0: the output array after the pipeline is the product array.

  The pipeline walks 25 points; point t loads rows 2000·t … 2000·t + 1999 of the node array and the whole 400 x 400 matrix,
  and writes the product of the two back to the same rows of the output. The 25 row blocks tile the 50000 rows, so the
  output array ends as `lin` of the node array and the matrix as the region found them.
-/
import proofs.«168568_j25494925869146_1_alg».proof.Proof.Gen.KernelIdeal.Frame
import proofs.«168568_j25494925869146_1_alg».proof.Proof.Pay

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz0 : (![0, 0] : Fin 2 → Nat) = fun _ => 0 := funext fun a => by fin_cases a <;> rfl

/-- The index maps over the grid: the node window and the output window move together, one block of rows per point;
    the matrix window stays. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every block of rows is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- One point, over plain variables: if the loaded block holds rows `2000·b + ·` of `A` and the loaded matrix is `W`,
    the stored value at `y` is the product array at the array index `i` that `y` names. -/
theorem point0 (A : (⟨2, ![50000, 400]⟩ : Shape).Idx → EReal) (W : (⟨2, ![400, 400]⟩ : Shape).Idx → EReal)
    (x0 : Vec Ideal S2000x400 .f32) (x1 : Vec Ideal S400x400 .f32) (y : S2000x400.Idx) (i : S50000x400.Idx) (b : ℕ)
    (hx0 : ∀ (y' : S2000x400.Idx) (i' : S50000x400.Idx), (i' 0).val = b * 2000 + (y' 0).val → (i' 1).val = (y' 1).val → x0 y' = A i')
    (hx1 : x1 = W) (hi0 : (i 0).val = b * 2000 + (y 0).val) (hi1 : (i 1).val = (y 1).val) :
    k0_pay1 (F := Ideal) x0 x1 y = lin A W i := by
  obtain ⟨p, q, rfl⟩ : ∃ (p : Fin 2000) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx1
  rw [k0_pay1_apply, lin_apply]
  unfold linAt
  exact Finset.sum_congr rfl fun k _ => congrArg (· * x1 (ix2 k s)) (hx0 (ix2 p k) (ix2 r k) hi0 rfl)

/-- What point `t` writes back is block `t` of the product array. -/
theorem flushed0 (c : Dev nD) (t : Fin cfg0.N) :
    (dat0 V c).flushed 2 t = ((cfg0.win 2).blk t).view.read (Elt Ideal) (lin (V c main_arg0) (V c main_v9)) := by
  show (cfg0.win 2).cut (grid0.coords t) ((dat0 V c).after 2 t) = _
  rw [after0_2]
  unfold out0_2
  rw [View.canon_unit_zero hz0]
  simp only [View.ld_unit_zero (S := S2000x400) hz0, View.ld_unit_zero (S := S400x400) hz0]
  obtain ⟨e0, e1, e2, e3, e4, e5⟩ := idx_facts0 t
  funext j
  refine point0 (V c main_arg0) (V c main_v9) (iblk0 V c 0 t) (iblk0 V c 1 t) j _ (win0_2.index t (0 : Fin 2)) ?_ ?_ ?_ ?_
  · intro y' i' h0 h1
    show V c main_arg0 (((cfg0.win 0).blk t).view.emb y') = V c main_arg0 i'
    refine congrArg (V c main_arg0) (funext fun a => Fin.ext ?_)
    match a with
    | ⟨0, _⟩ => show win0_0.index t (0 : Fin 2) * 2000 + 1 * (y' 0).val = (i' 0).val; omega
    | ⟨1, _⟩ => show win0_0.index t (1 : Fin 2) * 400 + 1 * (y' 1).val = (i' 1).val; omega
  · funext y'
    show V c main_v9 (((cfg0.win 1).blk t).view.emb y') = V c main_v9 y'
    refine congrArg (V c main_v9) (funext fun a => Fin.ext ?_)
    match a with
    | ⟨0, _⟩ => show win0_1.index t (0 : Fin 2) * 400 + 1 * (y' 0).val = (y' 0).val; omega
    | ⟨1, _⟩ => show win0_1.index t (1 : Fin 2) * 400 + 1 * (y' 1).val = (y' 1).val; omega
  · show win0_2.index t (0 : Fin 2) * 2000 + 1 * (j 0).val = win0_2.index t (0 : Fin 2) * 2000 + (j 0).val; omega
  · show win0_2.index t (1 : Fin 2) * 400 + 1 * (j 1).val = (j 1).val; omega

/-- An index of the output array is in point `t`'s block iff each coordinate is in the block's range. -/
theorem mem_blk0 (t : Fin cfg0.N) (i : S50000x400.Idx) :
    i ∈ ((cfg0.win 2).blk t).view.set ↔ ∀ a : Fin 2, win0_2.index t a * S2000x400.size a ≤ (i a).val ∧ (i a).val < win0_2.index t a * S2000x400.size a + S2000x400.size a := by
  show i ∈ ((View.whole main_v10).slice (win0_2.rect t)).set ↔ _
  rw [View.set_slice_whole, Rect.mem_set_unit]
  exact Iff.rfl

/-- The blocks cover the output array: row `r` is in the block of point `r / 2000`. -/
theorem cover0 (i : S50000x400.Idx) : ∃ t : Fin cfg0.N, (cfg0.win 2).flush t = true ∧ i ∈ ((cfg0.win 2).blk t).view.set := by
  have hi0 : (i 0).val < 50000 := (i 0).isLt
  have hi1 : (i 1).val < 400 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 400 ≤ (i 1).val ∧ (i 1).val < win0_2.index t (1 : Fin 2) * 400 + 400; omega

/-- The output array after the region. -/
theorem arr0 (c : Dev nD) : (dat0 V c).arrAt 2 cfg0.N = lin (V c main_arg0) (V c main_v9) :=
  (dat0 V c).arrAt_eq_of_cover 2 _ (fun t _ => flushed0 V c t) (cover0)

end Cert.KernelIdeal.Val

end
-- ==== Proof.RegLin2.lean ====
/-
  Linear region 2: the output array after the pipeline is the product array.

  The pipeline walks 25 points; point t loads rows 2000·t … 2000·t + 1999 of the node array and the whole 400 x 400 matrix,
  and writes the product of the two back to the same rows of the output. The 25 row blocks tile the 50000 rows, so the
  output array ends as `lin` of the node array and the matrix as the region found them.
-/
import proofs.«168568_j25494925869146_1_alg».proof.Proof.Gen.KernelIdeal.Frame
import proofs.«168568_j25494925869146_1_alg».proof.Proof.Pay

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the node window and the output window move together, one block of rows per point;
    the matrix window stays. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 24 :=
  (by decide +kernel : ∀ t : Fin grid2.N, _)

/-- Every block of rows is some point's. -/
theorem idx_onto2 : ∀ q0 : Fin 25, ∃ t : Fin cfg2.N, win2_2.index t = ![q0.val, 0] :=
  (by decide +kernel : ∀ q0 : Fin 25, ∃ t : Fin grid2.N, win2_2.index t = ![q0.val, 0])

/-- One point, over plain variables: if the loaded block holds rows `2000·b + ·` of `A` and the loaded matrix is `W`,
    the stored value at `y` is the product array at the array index `i` that `y` names. -/
theorem point2 (A : (⟨2, ![50000, 400]⟩ : Shape).Idx → EReal) (W : (⟨2, ![400, 400]⟩ : Shape).Idx → EReal)
    (x0 : Vec Ideal S2000x400 .f32) (x1 : Vec Ideal S400x400 .f32) (y : S2000x400.Idx) (i : S50000x400.Idx) (b : ℕ)
    (hx0 : ∀ (y' : S2000x400.Idx) (i' : S50000x400.Idx), (i' 0).val = b * 2000 + (y' 0).val → (i' 1).val = (y' 1).val → x0 y' = A i')
    (hx1 : x1 = W) (hi0 : (i 0).val = b * 2000 + (y 0).val) (hi1 : (i 1).val = (y 1).val) :
    k2_pay1 (F := Ideal) x0 x1 y = lin A W i := by
  obtain ⟨p, q, rfl⟩ : ∃ (p : Fin 2000) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx1
  rw [k2_pay1_apply, lin_apply]
  unfold linAt
  exact Finset.sum_congr rfl fun k _ => congrArg (· * x1 (ix2 k s)) (hx0 (ix2 p k) (ix2 r k) hi0 rfl)

/-- What point `t` writes back is block `t` of the product array. -/
theorem flushed2 (c : Dev nD) (t : Fin cfg2.N) :
    (dat2 V c).flushed 2 t = ((cfg2.win 2).blk t).view.read (Elt Ideal) (lin (V c main_v21) (V c main_v23)) := by
  show (cfg2.win 2).cut (grid2.coords t) ((dat2 V c).after 2 t) = _
  rw [after2_2]
  unfold out2_2
  rw [View.canon_unit_zero hz2]
  simp only [View.ld_unit_zero (S := S2000x400) hz2, View.ld_unit_zero (S := S400x400) hz2]
  obtain ⟨e0, e1, e2, e3, e4, e5⟩ := idx_facts2 t
  funext j
  refine point2 (V c main_v21) (V c main_v23) (iblk2 V c 0 t) (iblk2 V c 1 t) j _ (win2_2.index t (0 : Fin 2)) ?_ ?_ ?_ ?_
  · intro y' i' h0 h1
    show V c main_v21 (((cfg2.win 0).blk t).view.emb y') = V c main_v21 i'
    refine congrArg (V c main_v21) (funext fun a => Fin.ext ?_)
    match a with
    | ⟨0, _⟩ => show win2_0.index t (0 : Fin 2) * 2000 + 1 * (y' 0).val = (i' 0).val; omega
    | ⟨1, _⟩ => show win2_0.index t (1 : Fin 2) * 400 + 1 * (y' 1).val = (i' 1).val; omega
  · funext y'
    show V c main_v23 (((cfg2.win 1).blk t).view.emb y') = V c main_v23 y'
    refine congrArg (V c main_v23) (funext fun a => Fin.ext ?_)
    match a with
    | ⟨0, _⟩ => show win2_1.index t (0 : Fin 2) * 400 + 1 * (y' 0).val = (y' 0).val; omega
    | ⟨1, _⟩ => show win2_1.index t (1 : Fin 2) * 400 + 1 * (y' 1).val = (y' 1).val; omega
  · show win2_2.index t (0 : Fin 2) * 2000 + 1 * (j 0).val = win2_2.index t (0 : Fin 2) * 2000 + (j 0).val; omega
  · show win2_2.index t (1 : Fin 2) * 400 + 1 * (j 1).val = (j 1).val; omega

/-- An index of the output array is in point `t`'s block iff each coordinate is in the block's range. -/
theorem mem_blk2 (t : Fin cfg2.N) (i : S50000x400.Idx) :
    i ∈ ((cfg2.win 2).blk t).view.set ↔ ∀ a : Fin 2, win2_2.index t a * S2000x400.size a ≤ (i a).val ∧ (i a).val < win2_2.index t a * S2000x400.size a + S2000x400.size a := by
  show i ∈ ((View.whole main_v24).slice (win2_2.rect t)).set ↔ _
  rw [View.set_slice_whole, Rect.mem_set_unit]
  exact Iff.rfl

/-- The blocks cover the output array: row `r` is in the block of point `r / 2000`. -/
theorem cover2 (i : S50000x400.Idx) : ∃ t : Fin cfg2.N, (cfg2.win 2).flush t = true ∧ i ∈ ((cfg2.win 2).blk t).view.set := by
  have hi0 : (i 0).val < 50000 := (i 0).isLt
  have hi1 : (i 1).val < 400 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 400 ≤ (i 1).val ∧ (i 1).val < win2_2.index t (1 : Fin 2) * 400 + 400; omega

/-- The output array after the region. -/
theorem arr2 (c : Dev nD) : (dat2 V c).arrAt 2 cfg2.N = lin (V c main_v21) (V c main_v23) :=
  (dat2 V c).arrAt_eq_of_cover 2 _ (fun t _ => flushed2 V c t) (cover2)

end Cert.KernelIdeal.Val

end
-- ==== Proof.RegLin4.lean ====
/-
  Linear region 4: the output array after the pipeline is the product array.

  The pipeline walks 25 points; point t loads rows 2000·t … 2000·t + 1999 of the node array and the whole 400 x 400 matrix,
  and writes the product of the two back to the same rows of the output. The 25 row blocks tile the 50000 rows, so the
  output array ends as `lin` of the node array and the matrix as the region found them.
-/
import proofs.«168568_j25494925869146_1_alg».proof.Proof.Gen.KernelIdeal.Frame
import proofs.«168568_j25494925869146_1_alg».proof.Proof.Pay

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz4 : (![0, 0] : Fin 2 → Nat) = fun _ => 0 := funext fun a => by fin_cases a <;> rfl

/-- The index maps over the grid: the node window and the output window move together, one block of rows per point;
    the matrix window stays. -/
theorem idx_facts4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 24 :=
  (by decide +kernel : ∀ t : Fin grid4.N, _)

/-- Every block of rows is some point's. -/
theorem idx_onto4 : ∀ q0 : Fin 25, ∃ t : Fin cfg4.N, win4_2.index t = ![q0.val, 0] :=
  (by decide +kernel : ∀ q0 : Fin 25, ∃ t : Fin grid4.N, win4_2.index t = ![q0.val, 0])

/-- One point, over plain variables: if the loaded block holds rows `2000·b + ·` of `A` and the loaded matrix is `W`,
    the stored value at `y` is the product array at the array index `i` that `y` names. -/
theorem point4 (A : (⟨2, ![50000, 400]⟩ : Shape).Idx → EReal) (W : (⟨2, ![400, 400]⟩ : Shape).Idx → EReal)
    (x0 : Vec Ideal S2000x400 .f32) (x1 : Vec Ideal S400x400 .f32) (y : S2000x400.Idx) (i : S50000x400.Idx) (b : ℕ)
    (hx0 : ∀ (y' : S2000x400.Idx) (i' : S50000x400.Idx), (i' 0).val = b * 2000 + (y' 0).val → (i' 1).val = (y' 1).val → x0 y' = A i')
    (hx1 : x1 = W) (hi0 : (i 0).val = b * 2000 + (y 0).val) (hi1 : (i 1).val = (y 1).val) :
    k4_pay1 (F := Ideal) x0 x1 y = lin A W i := by
  obtain ⟨p, q, rfl⟩ : ∃ (p : Fin 2000) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx1
  rw [k4_pay1_apply, lin_apply]
  unfold linAt
  exact Finset.sum_congr rfl fun k _ => congrArg (· * x1 (ix2 k s)) (hx0 (ix2 p k) (ix2 r k) hi0 rfl)

/-- What point `t` writes back is block `t` of the product array. -/
theorem flushed4 (c : Dev nD) (t : Fin cfg4.N) :
    (dat4 V c).flushed 2 t = ((cfg4.win 2).blk t).view.read (Elt Ideal) (lin (V c main_v35) (V c main_v37)) := by
  show (cfg4.win 2).cut (grid4.coords t) ((dat4 V c).after 2 t) = _
  rw [after4_2]
  unfold out4_2
  rw [View.canon_unit_zero hz4]
  simp only [View.ld_unit_zero (S := S2000x400) hz4, View.ld_unit_zero (S := S400x400) hz4]
  obtain ⟨e0, e1, e2, e3, e4, e5⟩ := idx_facts4 t
  funext j
  refine point4 (V c main_v35) (V c main_v37) (iblk4 V c 0 t) (iblk4 V c 1 t) j _ (win4_2.index t (0 : Fin 2)) ?_ ?_ ?_ ?_
  · intro y' i' h0 h1
    show V c main_v35 (((cfg4.win 0).blk t).view.emb y') = V c main_v35 i'
    refine congrArg (V c main_v35) (funext fun a => Fin.ext ?_)
    match a with
    | ⟨0, _⟩ => show win4_0.index t (0 : Fin 2) * 2000 + 1 * (y' 0).val = (i' 0).val; omega
    | ⟨1, _⟩ => show win4_0.index t (1 : Fin 2) * 400 + 1 * (y' 1).val = (i' 1).val; omega
  · funext y'
    show V c main_v37 (((cfg4.win 1).blk t).view.emb y') = V c main_v37 y'
    refine congrArg (V c main_v37) (funext fun a => Fin.ext ?_)
    match a with
    | ⟨0, _⟩ => show win4_1.index t (0 : Fin 2) * 400 + 1 * (y' 0).val = (y' 0).val; omega
    | ⟨1, _⟩ => show win4_1.index t (1 : Fin 2) * 400 + 1 * (y' 1).val = (y' 1).val; omega
  · show win4_2.index t (0 : Fin 2) * 2000 + 1 * (j 0).val = win4_2.index t (0 : Fin 2) * 2000 + (j 0).val; omega
  · show win4_2.index t (1 : Fin 2) * 400 + 1 * (j 1).val = (j 1).val; omega

/-- An index of the output array is in point `t`'s block iff each coordinate is in the block's range. -/
theorem mem_blk4 (t : Fin cfg4.N) (i : S50000x400.Idx) :
    i ∈ ((cfg4.win 2).blk t).view.set ↔ ∀ a : Fin 2, win4_2.index t a * S2000x400.size a ≤ (i a).val ∧ (i a).val < win4_2.index t a * S2000x400.size a + S2000x400.size a := by
  show i ∈ ((View.whole main_v38).slice (win4_2.rect t)).set ↔ _
  rw [View.set_slice_whole, Rect.mem_set_unit]
  exact Iff.rfl

/-- The blocks cover the output array: row `r` is in the block of point `r / 2000`. -/
theorem cover4 (i : S50000x400.Idx) : ∃ t : Fin cfg4.N, (cfg4.win 2).flush t = true ∧ i ∈ ((cfg4.win 2).blk t).view.set := by
  have hi0 : (i 0).val < 50000 := (i 0).isLt
  have hi1 : (i 1).val < 400 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 400 ≤ (i 1).val ∧ (i 1).val < win4_2.index t (1 : Fin 2) * 400 + 400; omega

/-- The output array after the region. -/
theorem arr4 (c : Dev nD) : (dat4 V c).arrAt 2 cfg4.N = lin (V c main_v35) (V c main_v37) :=
  (dat4 V c).arrAt_eq_of_cover 2 _ (fun t _ => flushed4 V c t) (cover4)

end Cert.KernelIdeal.Val

end
-- ==== Proof.PayB.lean ====
/-
  The second and third gated-cell bodies' stores, read at coordinates.

  These bodies are printed in pieces — the two dense arrays, the update gate, the candidate state scaled by one minus
  the gate, and the old states — and the store adds the gate times the old states to the scaled candidate. Entry (p, q)
  is again `gruAt` of the loads.
-/
import proofs.«168568_j25494925869146_1_alg».proof.Proof.Pay

noncomputable section

namespace Cert.Gnn

open Idealize.ShloMosaic Idealize.ShloMosaic.ValueIdx Cert.KernelIdeal Cert.KernelIdeal.Gen
open scoped BigOperators

theorem k3_pay_apply (v0 v3 : Vec Ideal S400x400 .f32) (v6 v9 : Vec Ideal S400x1200 .f32) (v13 v19 : Vec Ideal S1x1200 .f32)
    (p q : Fin 400) :
    k3_pay1 (F := Ideal) (k3_pay4 v0 v3 v6 v9 v13 v19) (k3_pay5 v0 v3 v6 v9 v13 v19) (k3_pay6 v3) (ix2 p q)
      = gruAt v0 v3 v6 v9 v13 v19 p q := by
  unfold k3_pay1 k3_pay5 k3_pay4 k3_pay6 k3_pay2 k3_pay3
  refine (cell_of_dense (M := 400) _ _ _ _ _ _ p q).trans ?_
  unfold gruAt
  rw [dense_block, dense_block, dense_block, dense_block, dense_block, dense_block]
  simp only [shapeCast_self]
  rfl

theorem k5_pay_apply (v0 v3 : Vec Ideal S400x400 .f32) (v6 v9 : Vec Ideal S400x1200 .f32) (v13 v19 : Vec Ideal S1x1200 .f32)
    (p q : Fin 400) :
    k5_pay1 (F := Ideal) (k5_pay4 v0 v3 v6 v9 v13 v19) (k5_pay5 v0 v3 v6 v9 v13 v19) (k5_pay6 v3) (ix2 p q)
      = gruAt v0 v3 v6 v9 v13 v19 p q := by
  unfold k5_pay1 k5_pay5 k5_pay4 k5_pay6 k5_pay2 k5_pay3
  refine (cell_of_dense (M := 400) _ _ _ _ _ _ p q).trans ?_
  unfold gruAt
  rw [dense_block, dense_block, dense_block, dense_block, dense_block, dense_block]
  simp only [shapeCast_self]
  rfl

end Cert.Gnn

end
-- ==== Proof.RegGru1.lean ====
/-
  Gated-cell region 1: the output array after the pipeline is the array of new node states.

  The pipeline walks 125 points; point t loads rows 400·t … 400·t + 399 of the edge sums and of the old states, the two
  whole 400 x 1200 matrices and the two whole bias rows, and writes the new states of those rows back. The 125 row blocks
  tile the 50000 rows, so the output array ends as `gru` of the six arrays as the region found them.
-/
import proofs.«168568_j25494925869146_1_alg».proof.Proof.Gen.KernelIdeal.Frame
import proofs.«168568_j25494925869146_1_alg».proof.Proof.PayB

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The index maps over the grid: the two row windows and the output window move together, one block of rows per
    point; the matrices and the bias rows stay. -/
theorem idx_facts1 : ∀ t : Fin cfg1.N, win1_0.index t (0 : Fin 2) = win1_6.index t (0 : Fin 2)
    ∧ win1_1.index t (0 : Fin 2) = win1_6.index t (0 : Fin 2)
    ∧ win1_0.index t (1 : Fin 2) = 0 ∧ win1_1.index t (1 : Fin 2) = 0 ∧ win1_6.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 124 :=
  (by decide +kernel : ∀ t : Fin grid1.N, _)

/-- Every block of rows is some point's. -/
theorem idx_onto1 : ∀ q0 : Fin 125, ∃ t : Fin cfg1.N, win1_6.index t = ![q0.val, 0] :=
  (by decide +kernel : ∀ q0 : Fin 125, ∃ t : Fin grid1.N, win1_6.index t = ![q0.val, 0])

/-- One point, over plain variables: if the two loaded row blocks hold rows `400·b + ·` of `agg` and `h` and the other
    loads are the whole matrices and bias rows, the stored value at `y` is the new-state array at the array index `i`
    that `y` names. -/
theorem point1 (agg h : (⟨2, ![50000, 400]⟩ : Shape).Idx → EReal) (A B : (⟨2, ![400, 1200]⟩ : Shape).Idx → EReal)
    (bi bh : (⟨2, ![1, 1200]⟩ : Shape).Idx → EReal)
    (x0 x1 : Vec Ideal S400x400 .f32) (x2 x3 : Vec Ideal S400x1200 .f32) (x4 x5 : Vec Ideal S1x1200 .f32)
    (y : S400x400.Idx) (i : S50000x400.Idx) (b : ℕ)
    (hx0 : ∀ (y' : S400x400.Idx) (i' : S50000x400.Idx), (i' 0).val = b * 400 + (y' 0).val → (i' 1).val = (y' 1).val → x0 y' = agg i')
    (hx1 : ∀ (y' : S400x400.Idx) (i' : S50000x400.Idx), (i' 0).val = b * 400 + (y' 0).val → (i' 1).val = (y' 1).val → x1 y' = h i')
    (hx2 : x2 = A) (hx3 : x3 = B) (hx4 : x4 = bi) (hx5 : x5 = bh)
    (hi0 : (i 0).val = b * 400 + (y 0).val) (hi1 : (i 1).val = (y 1).val) :
    k1_pay1 (F := Ideal) x0 x1 x2 x3 x4 x5 x1 y = gru agg h A B bi bh i := by
  obtain ⟨p, q, rfl⟩ : ∃ (p : Fin 400) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx2 hx3 hx4 hx5
  have e0 : ∀ k : Fin 400, x0 (ix2 p k) = agg (ix2 r k) := fun k => hx0 (ix2 p k) (ix2 r k) hi0 rfl
  have e1 : ∀ k : Fin 400, x1 (ix2 p k) = h (ix2 r k) := fun k => hx1 (ix2 p k) (ix2 r k) hi0 rfl
  rw [k1_pay1_apply, gru_apply]
  unfold gruAt denseAt
  simp only [e0, e1]

/-- What point `t` writes back is block `t` of the new-state array. -/
theorem flushed1 (c : Dev nD) (t : Fin cfg1.N) :
    (dat1 V c).flushed 6 t = ((cfg1.win 6).blk t).view.read (Elt Ideal)
      (gru (V c main_v20) (V c main_arg0) (V c main_v4) (V c main_v5) (V c main_v6) (V c main_v7)) := by
  show (cfg1.win 6).cut (grid1.coords t) ((dat1 V c).after 6 t) = _
  rw [after1_6]
  unfold out1_6
  rw [View.canon_unit_zero hz1]
  simp only [View.ld_unit_zero (S := S400x400) hz1, View.ld_unit_zero (S := S400x1200) hz1, View.ld_unit_zero (S := S1x1200) hz1]
  obtain ⟨e0, e1, e2, e3, e4, e5, e6, e7, e8, e9, e10, e11, e12, e13⟩ := idx_facts1 t
  funext j
  refine point1 (V c main_v20) (V c main_arg0) (V c main_v4) (V c main_v5) (V c main_v6) (V c main_v7)
    (iblk1 V c 0 t) (iblk1 V c 1 t) (iblk1 V c 2 t) (iblk1 V c 3 t) (iblk1 V c 4 t) (iblk1 V c 5 t) j _
    (win1_6.index t (0 : Fin 2)) ?_ ?_ ?_ ?_ ?_ ?_ ?_ ?_
  · intro y' i' h0 h1
    show V c main_v20 (((cfg1.win 0).blk t).view.emb y') = V c main_v20 i'
    refine congrArg (V c main_v20) (funext fun a => Fin.ext ?_)
    match a with
    | ⟨0, _⟩ => show win1_0.index t (0 : Fin 2) * 400 + 1 * (y' 0).val = (i' 0).val; omega
    | ⟨1, _⟩ => show win1_0.index t (1 : Fin 2) * 400 + 1 * (y' 1).val = (i' 1).val; omega
  · intro y' i' h0 h1
    show V c main_arg0 (((cfg1.win 1).blk t).view.emb y') = V c main_arg0 i'
    refine congrArg (V c main_arg0) (funext fun a => Fin.ext ?_)
    match a with
    | ⟨0, _⟩ => show win1_1.index t (0 : Fin 2) * 400 + 1 * (y' 0).val = (i' 0).val; omega
    | ⟨1, _⟩ => show win1_1.index t (1 : Fin 2) * 400 + 1 * (y' 1).val = (i' 1).val; omega
  · funext y'
    show V c main_v4 (((cfg1.win 2).blk t).view.emb y') = V c main_v4 y'
    refine congrArg (V c main_v4) (funext fun a => Fin.ext ?_)
    match a with
    | ⟨0, _⟩ => show win1_2.index t (0 : Fin 2) * 400 + 1 * (y' 0).val = (y' 0).val; omega
    | ⟨1, _⟩ => show win1_2.index t (1 : Fin 2) * 1200 + 1 * (y' 1).val = (y' 1).val; omega
  · funext y'
    show V c main_v5 (((cfg1.win 3).blk t).view.emb y') = V c main_v5 y'
    refine congrArg (V c main_v5) (funext fun a => Fin.ext ?_)
    match a with
    | ⟨0, _⟩ => show win1_3.index t (0 : Fin 2) * 400 + 1 * (y' 0).val = (y' 0).val; omega
    | ⟨1, _⟩ => show win1_3.index t (1 : Fin 2) * 1200 + 1 * (y' 1).val = (y' 1).val; omega
  · funext y'
    show V c main_v6 (((cfg1.win 4).blk t).view.emb y') = V c main_v6 y'
    refine congrArg (V c main_v6) (funext fun a => Fin.ext ?_)
    match a with
    | ⟨0, _⟩ => show win1_4.index t (0 : Fin 2) * 1 + 1 * (y' 0).val = (y' 0).val; omega
    | ⟨1, _⟩ => show win1_4.index t (1 : Fin 2) * 1200 + 1 * (y' 1).val = (y' 1).val; omega
  · funext y'
    show V c main_v7 (((cfg1.win 5).blk t).view.emb y') = V c main_v7 y'
    refine congrArg (V c main_v7) (funext fun a => Fin.ext ?_)
    match a with
    | ⟨0, _⟩ => show win1_5.index t (0 : Fin 2) * 1 + 1 * (y' 0).val = (y' 0).val; omega
    | ⟨1, _⟩ => show win1_5.index t (1 : Fin 2) * 1200 + 1 * (y' 1).val = (y' 1).val; omega
  · show win1_6.index t (0 : Fin 2) * 400 + 1 * (j 0).val = win1_6.index t (0 : Fin 2) * 400 + (j 0).val; omega
  · show win1_6.index t (1 : Fin 2) * 400 + 1 * (j 1).val = (j 1).val; omega

/-- An index of the output array is in point `t`'s block iff each coordinate is in the block's range. -/
theorem mem_blk1 (t : Fin cfg1.N) (i : S50000x400.Idx) :
    i ∈ ((cfg1.win 6).blk t).view.set ↔ ∀ a : Fin 2, win1_6.index t a * S400x400.size a ≤ (i a).val ∧ (i a).val < win1_6.index t a * S400x400.size a + S400x400.size a := by
  show i ∈ ((View.whole main_v21).slice (win1_6.rect t)).set ↔ _
  rw [View.set_slice_whole, Rect.mem_set_unit]
  exact Iff.rfl

/-- The blocks cover the output array: row `r` is in the block of point `r / 400`. -/
theorem cover1 (i : S50000x400.Idx) : ∃ t : Fin cfg1.N, (cfg1.win 6).flush t = true ∧ i ∈ ((cfg1.win 6).blk t).view.set := by
  have hi0 : (i 0).val < 50000 := (i 0).isLt
  have hi1 : (i 1).val < 400 := (i 1).isLt
  obtain ⟨t, ht⟩ := idx_onto1 ⟨(i 0).val / 400, by omega⟩
  have q0 : win1_6.index t (0 : Fin 2) = (i 0).val / 400 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 400 ≤ (i 0).val ∧ (i 0).val < win1_6.index t (0 : Fin 2) * 400 + 400; omega
  | ⟨1, _⟩ => show win1_6.index t (1 : Fin 2) * 400 ≤ (i 1).val ∧ (i 1).val < win1_6.index t (1 : Fin 2) * 400 + 400; omega

/-- The output array after the region. -/
theorem arr1 (c : Dev nD) : (dat1 V c).arrAt 6 cfg1.N
    = gru (V c main_v20) (V c main_arg0) (V c main_v4) (V c main_v5) (V c main_v6) (V c main_v7) :=
  (dat1 V c).arrAt_eq_of_cover 6 _ (fun t _ => flushed1 V c t) (cover1)

end Cert.KernelIdeal.Val

end
-- ==== Proof.RegGru3.lean ====
/-
  Gated-cell region 3: the output array after the pipeline is the array of new node states.

  The pipeline walks 125 points; point t loads rows 400·t … 400·t + 399 of the edge sums and of the old states, the two
  whole 400 x 1200 matrices and the two whole bias rows, and writes the new states of those rows back. The 125 row blocks
  tile the 50000 rows, so the output array ends as `gru` of the six arrays as the region found them.
-/
import proofs.«168568_j25494925869146_1_alg».proof.Proof.Gen.KernelIdeal.Frame
import proofs.«168568_j25494925869146_1_alg».proof.Proof.PayB

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz3 : (![0, 0] : Fin 2 → Nat) = fun _ => 0 := funext fun a => by fin_cases a <;> rfl

/-- The index maps over the grid: the two row windows and the output window move together, one block of rows per
    point; the matrices and the bias rows stay. -/
theorem idx_facts3 : ∀ t : Fin cfg3.N, win3_0.index t (0 : Fin 2) = win3_6.index t (0 : Fin 2)
    ∧ win3_1.index t (0 : Fin 2) = win3_6.index t (0 : Fin 2)
    ∧ win3_0.index t (1 : Fin 2) = 0 ∧ win3_1.index t (1 : Fin 2) = 0 ∧ win3_6.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) ≤ 124 :=
  (by decide +kernel : ∀ t : Fin grid3.N, _)

/-- Every block of rows is some point's. -/
theorem idx_onto3 : ∀ q0 : Fin 125, ∃ t : Fin cfg3.N, win3_6.index t = ![q0.val, 0] :=
  (by decide +kernel : ∀ q0 : Fin 125, ∃ t : Fin grid3.N, win3_6.index t = ![q0.val, 0])

/-- One point, over plain variables: if the two loaded row blocks hold rows `400·b + ·` of `agg` and `h` and the other
    loads are the whole matrices and bias rows, the stored value at `y` is the new-state array at the array index `i`
    that `y` names. -/
theorem point3 (agg h : (⟨2, ![50000, 400]⟩ : Shape).Idx → EReal) (A B : (⟨2, ![400, 1200]⟩ : Shape).Idx → EReal)
    (bi bh : (⟨2, ![1, 1200]⟩ : Shape).Idx → EReal)
    (x0 x1 : Vec Ideal S400x400 .f32) (x2 x3 : Vec Ideal S400x1200 .f32) (x4 x5 : Vec Ideal S1x1200 .f32)
    (y : S400x400.Idx) (i : S50000x400.Idx) (b : ℕ)
    (hx0 : ∀ (y' : S400x400.Idx) (i' : S50000x400.Idx), (i' 0).val = b * 400 + (y' 0).val → (i' 1).val = (y' 1).val → x0 y' = agg i')
    (hx1 : ∀ (y' : S400x400.Idx) (i' : S50000x400.Idx), (i' 0).val = b * 400 + (y' 0).val → (i' 1).val = (y' 1).val → x1 y' = h i')
    (hx2 : x2 = A) (hx3 : x3 = B) (hx4 : x4 = bi) (hx5 : x5 = bh)
    (hi0 : (i 0).val = b * 400 + (y 0).val) (hi1 : (i 1).val = (y 1).val) :
    k3_pay1 (F := Ideal) (k3_pay4 x0 x1 x2 x3 x4 x5) (k3_pay5 x0 x1 x2 x3 x4 x5) (k3_pay6 x1) y = gru agg h A B bi bh i := by
  obtain ⟨p, q, rfl⟩ : ∃ (p : Fin 400) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx2 hx3 hx4 hx5
  have e0 : ∀ k : Fin 400, x0 (ix2 p k) = agg (ix2 r k) := fun k => hx0 (ix2 p k) (ix2 r k) hi0 rfl
  have e1 : ∀ k : Fin 400, x1 (ix2 p k) = h (ix2 r k) := fun k => hx1 (ix2 p k) (ix2 r k) hi0 rfl
  rw [k3_pay_apply, gru_apply]
  unfold gruAt denseAt
  simp only [e0, e1]

/-- What point `t` writes back is block `t` of the new-state array. -/
theorem flushed3 (c : Dev nD) (t : Fin cfg3.N) :
    (dat3 V c).flushed 6 t = ((cfg3.win 6).blk t).view.read (Elt Ideal)
      (gru (V c main_v34) (V c main_v21) (V c main_v4) (V c main_v5) (V c main_v6) (V c main_v7)) := by
  show (cfg3.win 6).cut (grid3.coords t) ((dat3 V c).after 6 t) = _
  rw [after3_6]
  unfold out3_6
  rw [View.canon_unit_zero hz3]
  simp only [View.ld_unit_zero (S := S400x400) hz3, View.ld_unit_zero (S := S400x1200) hz3, View.ld_unit_zero (S := S1x1200) hz3]
  obtain ⟨e0, e1, e2, e3, e4, e5, e6, e7, e8, e9, e10, e11, e12, e13⟩ := idx_facts3 t
  funext j
  refine point3 (V c main_v34) (V c main_v21) (V c main_v4) (V c main_v5) (V c main_v6) (V c main_v7)
    (iblk3 V c 0 t) (iblk3 V c 1 t) (iblk3 V c 2 t) (iblk3 V c 3 t) (iblk3 V c 4 t) (iblk3 V c 5 t) j _
    (win3_6.index t (0 : Fin 2)) ?_ ?_ ?_ ?_ ?_ ?_ ?_ ?_
  · intro y' i' h0 h1
    show V c main_v34 (((cfg3.win 0).blk t).view.emb y') = V c main_v34 i'
    refine congrArg (V c main_v34) (funext fun a => Fin.ext ?_)
    match a with
    | ⟨0, _⟩ => show win3_0.index t (0 : Fin 2) * 400 + 1 * (y' 0).val = (i' 0).val; omega
    | ⟨1, _⟩ => show win3_0.index t (1 : Fin 2) * 400 + 1 * (y' 1).val = (i' 1).val; omega
  · intro y' i' h0 h1
    show V c main_v21 (((cfg3.win 1).blk t).view.emb y') = V c main_v21 i'
    refine congrArg (V c main_v21) (funext fun a => Fin.ext ?_)
    match a with
    | ⟨0, _⟩ => show win3_1.index t (0 : Fin 2) * 400 + 1 * (y' 0).val = (i' 0).val; omega
    | ⟨1, _⟩ => show win3_1.index t (1 : Fin 2) * 400 + 1 * (y' 1).val = (i' 1).val; omega
  · funext y'
    show V c main_v4 (((cfg3.win 2).blk t).view.emb y') = V c main_v4 y'
    refine congrArg (V c main_v4) (funext fun a => Fin.ext ?_)
    match a with
    | ⟨0, _⟩ => show win3_2.index t (0 : Fin 2) * 400 + 1 * (y' 0).val = (y' 0).val; omega
    | ⟨1, _⟩ => show win3_2.index t (1 : Fin 2) * 1200 + 1 * (y' 1).val = (y' 1).val; omega
  · funext y'
    show V c main_v5 (((cfg3.win 3).blk t).view.emb y') = V c main_v5 y'
    refine congrArg (V c main_v5) (funext fun a => Fin.ext ?_)
    match a with
    | ⟨0, _⟩ => show win3_3.index t (0 : Fin 2) * 400 + 1 * (y' 0).val = (y' 0).val; omega
    | ⟨1, _⟩ => show win3_3.index t (1 : Fin 2) * 1200 + 1 * (y' 1).val = (y' 1).val; omega
  · funext y'
    show V c main_v6 (((cfg3.win 4).blk t).view.emb y') = V c main_v6 y'
    refine congrArg (V c main_v6) (funext fun a => Fin.ext ?_)
    match a with
    | ⟨0, _⟩ => show win3_4.index t (0 : Fin 2) * 1 + 1 * (y' 0).val = (y' 0).val; omega
    | ⟨1, _⟩ => show win3_4.index t (1 : Fin 2) * 1200 + 1 * (y' 1).val = (y' 1).val; omega
  · funext y'
    show V c main_v7 (((cfg3.win 5).blk t).view.emb y') = V c main_v7 y'
    refine congrArg (V c main_v7) (funext fun a => Fin.ext ?_)
    match a with
    | ⟨0, _⟩ => show win3_5.index t (0 : Fin 2) * 1 + 1 * (y' 0).val = (y' 0).val; omega
    | ⟨1, _⟩ => show win3_5.index t (1 : Fin 2) * 1200 + 1 * (y' 1).val = (y' 1).val; omega
  · show win3_6.index t (0 : Fin 2) * 400 + 1 * (j 0).val = win3_6.index t (0 : Fin 2) * 400 + (j 0).val; omega
  · show win3_6.index t (1 : Fin 2) * 400 + 1 * (j 1).val = (j 1).val; omega

/-- An index of the output array is in point `t`'s block iff each coordinate is in the block's range. -/
theorem mem_blk3 (t : Fin cfg3.N) (i : S50000x400.Idx) :
    i ∈ ((cfg3.win 6).blk t).view.set ↔ ∀ a : Fin 2, win3_6.index t a * S400x400.size a ≤ (i a).val ∧ (i a).val < win3_6.index t a * S400x400.size a + S400x400.size a := by
  show i ∈ ((View.whole main_v35).slice (win3_6.rect t)).set ↔ _
  rw [View.set_slice_whole, Rect.mem_set_unit]
  exact Iff.rfl

/-- The blocks cover the output array: row `r` is in the block of point `r / 400`. -/
theorem cover3 (i : S50000x400.Idx) : ∃ t : Fin cfg3.N, (cfg3.win 6).flush t = true ∧ i ∈ ((cfg3.win 6).blk t).view.set := by
  have hi0 : (i 0).val < 50000 := (i 0).isLt
  have hi1 : (i 1).val < 400 := (i 1).isLt
  obtain ⟨t, ht⟩ := idx_onto3 ⟨(i 0).val / 400, by omega⟩
  have q0 : win3_6.index t (0 : Fin 2) = (i 0).val / 400 := congrFun ht 0
  have q1 : win3_6.index t (1 : Fin 2) = 0 := congrFun ht 1
  refine ⟨t, flush3_6 t, ?_⟩
  rw [mem_blk3]
  intro a
  match a with
  | ⟨0, _⟩ => show win3_6.index t (0 : Fin 2) * 400 ≤ (i 0).val ∧ (i 0).val < win3_6.index t (0 : Fin 2) * 400 + 400; omega
  | ⟨1, _⟩ => show win3_6.index t (1 : Fin 2) * 400 ≤ (i 1).val ∧ (i 1).val < win3_6.index t (1 : Fin 2) * 400 + 400; omega

/-- The output array after the region. -/
theorem arr3 (c : Dev nD) : (dat3 V c).arrAt 6 cfg3.N
    = gru (V c main_v34) (V c main_v21) (V c main_v4) (V c main_v5) (V c main_v6) (V c main_v7) :=
  (dat3 V c).arrAt_eq_of_cover 6 _ (fun t _ => flushed3 V c t) (cover3)

end Cert.KernelIdeal.Val

end
-- ==== Proof.RegGru5.lean ====
/-
  Gated-cell region 5: the output array after the pipeline is the array of new node states.

  The pipeline walks 125 points; point t loads rows 400·t … 400·t + 399 of the edge sums and of the old states, the two
  whole 400 x 1200 matrices and the two whole bias rows, and writes the new states of those rows back. The 125 row blocks
  tile the 50000 rows, so the output array ends as `gru` of the six arrays as the region found them.
-/
import proofs.«168568_j25494925869146_1_alg».proof.Proof.Gen.KernelIdeal.Frame
import proofs.«168568_j25494925869146_1_alg».proof.Proof.PayB

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.Gnn
open scoped BigOperators

variable (V : (c : Dev nD) → (b : Ref sig .tc) → Buf (Elt Ideal) ((c : Thread nD τ).loc b))

theorem hz5 : (![0, 0] : Fin 2 → Nat) = fun _ => 0 := funext fun a => by fin_cases a <;> rfl

/-- The index maps over the grid: the two row windows and the output window move together, one block of rows per
    point; the matrices and the bias rows stay. -/
theorem idx_facts5 : ∀ t : Fin cfg5.N, win5_0.index t (0 : Fin 2) = win5_6.index t (0 : Fin 2)
    ∧ win5_1.index t (0 : Fin 2) = win5_6.index t (0 : Fin 2)
    ∧ win5_0.index t (1 : Fin 2) = 0 ∧ win5_1.index t (1 : Fin 2) = 0 ∧ win5_6.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) ≤ 124 :=
  (by decide +kernel : ∀ t : Fin grid5.N, _)

/-- Every block of rows is some point's. -/
theorem idx_onto5 : ∀ q0 : Fin 125, ∃ t : Fin cfg5.N, win5_6.index t = ![q0.val, 0] :=
  (by decide +kernel : ∀ q0 : Fin 125, ∃ t : Fin grid5.N, win5_6.index t = ![q0.val, 0])

/-- One point, over plain variables: if the two loaded row blocks hold rows `400·b + ·` of `agg` and `h` and the other
    loads are the whole matrices and bias rows, the stored value at `y` is the new-state array at the array index `i`
    that `y` names. -/
theorem point5 (agg h : (⟨2, ![50000, 400]⟩ : Shape).Idx → EReal) (A B : (⟨2, ![400, 1200]⟩ : Shape).Idx → EReal)
    (bi bh : (⟨2, ![1, 1200]⟩ : Shape).Idx → EReal)
    (x0 x1 : Vec Ideal S400x400 .f32) (x2 x3 : Vec Ideal S400x1200 .f32) (x4 x5 : Vec Ideal S1x1200 .f32)
    (y : S400x400.Idx) (i : S50000x400.Idx) (b : ℕ)
    (hx0 : ∀ (y' : S400x400.Idx) (i' : S50000x400.Idx), (i' 0).val = b * 400 + (y' 0).val → (i' 1).val = (y' 1).val → x0 y' = agg i')
    (hx1 : ∀ (y' : S400x400.Idx) (i' : S50000x400.Idx), (i' 0).val = b * 400 + (y' 0).val → (i' 1).val = (y' 1).val → x1 y' = h i')
    (hx2 : x2 = A) (hx3 : x3 = B) (hx4 : x4 = bi) (hx5 : x5 = bh)
    (hi0 : (i 0).val = b * 400 + (y 0).val) (hi1 : (i 1).val = (y 1).val) :
    k5_pay1 (F := Ideal) (k5_pay4 x0 x1 x2 x3 x4 x5) (k5_pay5 x0 x1 x2 x3 x4 x5) (k5_pay6 x1) y = gru agg h A B bi bh i := by
  obtain ⟨p, q, rfl⟩ : ∃ (p : Fin 400) (q : Fin 400), y = ix2 p q := ⟨y 0, y 1, eq_ix2 y⟩
  obtain ⟨r, s, rfl⟩ : ∃ (r : Fin 50000) (s : Fin 400), i = ix2 r s := ⟨i 0, i 1, eq_ix2 i⟩
  have hs : s = q := Fin.ext hi1
  subst hs hx2 hx3 hx4 hx5
  have e0 : ∀ k : Fin 400, x0 (ix2 p k) = agg (ix2 r k) := fun k => hx0 (ix2 p k) (ix2 r k) hi0 rfl
  have e1 : ∀ k : Fin 400, x1 (ix2 p k) = h (ix2 r k) := fun k => hx1 (ix2 p k) (ix2 r k) hi0 rfl
  rw [k5_pay_apply, gru_apply]
  unfold gruAt denseAt
  simp only [e0, e1]

/-- What point `t` writes back is block `t` of the new-state array. -/
theorem flushed5 (c : Dev nD) (t : Fin cfg5.N) :
    (dat5 V c).flushed 6 t = ((cfg5.win 6).blk t).view.read (Elt Ideal)
      (gru (V c main_v48) (V c main_v35) (V c main_v4) (V c main_v5) (V c main_v6) (V c main_v7)) := by
  show (cfg5.win 6).cut (grid5.coords t) ((dat5 V c).after 6 t) = _
  rw [after5_6]
  unfold out5_6
  rw [View.canon_unit_zero hz5]
  simp only [View.ld_unit_zero (S := S400x400) hz5, View.ld_unit_zero (S := S400x1200) hz5, View.ld_unit_zero (S := S1x1200) hz5]
  obtain ⟨e0, e1, e2, e3, e4, e5, e6, e7, e8, e9, e10, e11, e12, e13⟩ := idx_facts5 t
  funext j
  refine point5 (V c main_v48) (V c main_v35) (V c main_v4) (V c main_v5) (V c main_v6) (V c main_v7)
    (iblk5 V c 0 t) (iblk5 V c 1 t) (iblk5 V c 2 t) (iblk5 V c 3 t) (iblk5 V c 4 t) (iblk5 V c 5 t) j _
    (win5_6.index t (0 : Fin 2)) ?_ ?_ ?_ ?_ ?_ ?_ ?_ ?_
  · intro y' i' h0 h1
    show V c main_v48 (((cfg5.win 0).blk t).view.emb y') = V c main_v48 i'
    refine congrArg (V c main_v48) (funext fun a => Fin.ext ?_)
    match a with
    | ⟨0, _⟩ => show win5_0.index t (0 : Fin 2) * 400 + 1 * (y' 0).val = (i' 0).val; omega
    | ⟨1, _⟩ => show win5_0.index t (1 : Fin 2) * 400 + 1 * (y' 1).val = (i' 1).val; omega
  · intro y' i' h0 h1
    show V c main_v35 (((cfg5.win 1).blk t).view.emb y') = V c main_v35 i'
    refine congrArg (V c main_v35) (funext fun a => Fin.ext ?_)
    match a with
    | ⟨0, _⟩ => show win5_1.index t (0 : Fin 2) * 400 + 1 * (y' 0).val = (i' 0).val; omega
    | ⟨1, _⟩ => show win5_1.index t (1 : Fin 2) * 400 + 1 * (y' 1).val = (i' 1).val; omega
  · funext y'
    show V c main_v4 (((cfg5.win 2).blk t).view.emb y') = V c main_v4 y'
    refine congrArg (V c main_v4) (funext fun a => Fin.ext ?_)
    match a with
    | ⟨0, _⟩ => show win5_2.index t (0 : Fin 2) * 400 + 1 * (y' 0).val = (y' 0).val; omega
    | ⟨1, _⟩ => show win5_2.index t (1 : Fin 2) * 1200 + 1 * (y' 1).val = (y' 1).val; omega
  · funext y'
    show V c main_v5 (((cfg5.win 3).blk t).view.emb y') = V c main_v5 y'
    refine congrArg (V c main_v5) (funext fun a => Fin.ext ?_)
    match a with
    | ⟨0, _⟩ => show win5_3.index t (0 : Fin 2) * 400 + 1 * (y' 0).val = (y' 0).val; omega
    | ⟨1, _⟩ => show win5_3.index t (1 : Fin 2) * 1200 + 1 * (y' 1).val = (y' 1).val; omega
  · funext y'
    show V c main_v6 (((cfg5.win 4).blk t).view.emb y') = V c main_v6 y'
    refine congrArg (V c main_v6) (funext fun a => Fin.ext ?_)
    match a with
    | ⟨0, _⟩ => show win5_4.index t (0 : Fin 2) * 1 + 1 * (y' 0).val = (y' 0).val; omega
    | ⟨1, _⟩ => show win5_4.index t (1 : Fin 2) * 1200 + 1 * (y' 1).val = (y' 1).val; omega
  · funext y'
    show V c main_v7 (((cfg5.win 5).blk t).view.emb y') = V c main_v7 y'
    refine congrArg (V c main_v7) (funext fun a => Fin.ext ?_)
    match a with
    | ⟨0, _⟩ => show win5_5.index t (0 : Fin 2) * 1 + 1 * (y' 0).val = (y' 0).val; omega
    | ⟨1, _⟩ => show win5_5.index t (1 : Fin 2) * 1200 + 1 * (y' 1).val = (y' 1).val; omega
  · show win5_6.index t (0 : Fin 2) * 400 + 1 * (j 0).val = win5_6.index t (0 : Fin 2) * 400 + (j 0).val; omega
  · show win5_6.index t (1 : Fin 2) * 400 + 1 * (j 1).val = (j 1).val; omega

/-- An index of the output array is in point `t`'s block iff each coordinate is in the block's range. -/
theorem mem_blk5 (t : Fin cfg5.N) (i : S50000x400.Idx) :
    i ∈ ((cfg5.win 6).blk t).view.set ↔ ∀ a : Fin 2, win5_6.index t a * S400x400.size a ≤ (i a).val ∧ (i a).val < win5_6.index t a * S400x400.size a + S400x400.size a := by
  show i ∈ ((View.whole main_v49).slice (win5_6.rect t)).set ↔ _
  rw [View.set_slice_whole, Rect.mem_set_unit]
  exact Iff.rfl

/-- The blocks cover the output array: row `r` is in the block of point `r / 400`. -/
theorem cover5 (i : S50000x400.Idx) : ∃ t : Fin cfg5.N, (cfg5.win 6).flush t = true ∧ i ∈ ((cfg5.win 6).blk t).view.set := by
  have hi0 : (i 0).val < 50000 := (i 0).isLt
  have hi1 : (i 1).val < 400 := (i 1).isLt
  obtain ⟨t, ht⟩ := idx_onto5 ⟨(i 0).val / 400, by omega⟩
  have q0 : win5_6.index t (0 : Fin 2) = (i 0).val / 400 := congrFun ht 0
  have q1 : win5_6.index t (1 : Fin 2) = 0 := congrFun ht 1
  refine ⟨t, flush5_6 t, ?_⟩
  rw [mem_blk5]
  intro a
  match a with
  | ⟨0, _⟩ => show win5_6.index t (0 : Fin 2) * 400 ≤ (i 0).val ∧ (i 0).val < win5_6.index t (0 : Fin 2) * 400 + 400; omega
  | ⟨1, _⟩ => show win5_6.index t (1 : Fin 2) * 400 ≤ (i 1).val ∧ (i 1).val < win5_6.index t (1 : Fin 2) * 400 + 400; omega

/-- The output array after the region. -/
theorem arr5 (c : Dev nD) : (dat5 V c).arrAt 6 cfg5.N
    = gru (V c main_v48) (V c main_v35) (V c main_v4) (V c main_v5) (V c main_v6) (V c main_v7) :=
  (dat5 V c).arrAt_eq_of_cover 6 _ (fun t _ => flushed5 V c t) (cover5)

end Cert.KernelIdeal.Val

end
-- ==== Proof.KVal.lean ====
/-
  What the kernel's buffers hold at the boundaries of @main's twelve segments.

  The index arrays (sources and targets of the edges), the two transposed matrices, the two bias rows and the stack of
  layer matrices are written once, before the first region, and nothing writes them again: at every later boundary they
  hold what they held after the first stretch of host operations. The node states are carried from region to region:
  each linear region writes the product array, the host stretch after it gathers the products' rows at the edges'
  sources and adds them into the edges' targets, and the gated-cell region writes the new states from those sums and
  the old states. Composed, the result buffer ends as three layers applied to the input states.
-/
import proofs.«168568_j25494925869146_1_alg».proof.Proof.KRun
import proofs.«168568_j25494925869146_1_alg».proof.Proof.RegLin0
import proofs.«168568_j25494925869146_1_alg».proof.Proof.RegLin2
import proofs.«168568_j25494925869146_1_alg».proof.Proof.RegLin4
import proofs.«168568_j25494925869146_1_alg».proof.Proof.RegGru1
import proofs.«168568_j25494925869146_1_alg».proof.Proof.RegGru3
import proofs.«168568_j25494925869146_1_alg».proof.Proof.RegGru5
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.Gnn

variable (m : (ℓ : Loc nD τ sig) → Buf (Elt Ideal) ℓ) (ρ : Dev nD → PrngReg)

/-- A buffer that a stretch of host operations does not write keeps its contents through the stretch. -/
macro "keep_host " b:term : tactic => `(tactic| (
  refine StableHlo.after_of_forall_not_mem (b := Proc.devRef .tc $b) _ _ (List.forall_iff_forall_mem.mp ?_)
  simp only [hostOps0, hostOps1, hostOps2, hostOps3, hostOps4, hostOps5, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Buffers that keep their contents -/

theorem keep2_arg1_1 (c : Dev nD) : W2 m ρ c (Proc.devRef .tc main_arg1) = W1 m ρ c (Proc.devRef .tc main_arg1) :=
  W2_of_ne m ρ c main_arg1 (by decide)
theorem keep3_arg1_1 (c : Dev nD) : W3 m ρ c (Proc.devRef .tc main_arg1) = W1 m ρ c (Proc.devRef .tc main_arg1) :=
  (show W3 m ρ c (Proc.devRef .tc main_arg1) = W2 m ρ c (Proc.devRef .tc main_arg1) from by keep_host main_arg1).trans (keep2_arg1_1 m ρ c)
theorem keep4_arg1_1 (c : Dev nD) : W4 m ρ c (Proc.devRef .tc main_arg1) = W1 m ρ c (Proc.devRef .tc main_arg1) :=
  (W4_of_ne m ρ c main_arg1 (by decide)).trans (keep3_arg1_1 m ρ c)
theorem keep5_arg1_1 (c : Dev nD) : W5 m ρ c (Proc.devRef .tc main_arg1) = W1 m ρ c (Proc.devRef .tc main_arg1) :=
  (show W5 m ρ c (Proc.devRef .tc main_arg1) = W4 m ρ c (Proc.devRef .tc main_arg1) from by keep_host main_arg1).trans (keep4_arg1_1 m ρ c)
theorem keep6_arg1_1 (c : Dev nD) : W6 m ρ c (Proc.devRef .tc main_arg1) = W1 m ρ c (Proc.devRef .tc main_arg1) :=
  (W6_of_ne m ρ c main_arg1 (by decide)).trans (keep5_arg1_1 m ρ c)
theorem keep7_arg1_1 (c : Dev nD) : W7 m ρ c (Proc.devRef .tc main_arg1) = W1 m ρ c (Proc.devRef .tc main_arg1) :=
  (show W7 m ρ c (Proc.devRef .tc main_arg1) = W6 m ρ c (Proc.devRef .tc main_arg1) from by keep_host main_arg1).trans (keep6_arg1_1 m ρ c)
theorem keep8_arg1_1 (c : Dev nD) : W8 m ρ c (Proc.devRef .tc main_arg1) = W1 m ρ c (Proc.devRef .tc main_arg1) :=
  (W8_of_ne m ρ c main_arg1 (by decide)).trans (keep7_arg1_1 m ρ c)
theorem keep9_arg1_1 (c : Dev nD) : W9 m ρ c (Proc.devRef .tc main_arg1) = W1 m ρ c (Proc.devRef .tc main_arg1) :=
  (show W9 m ρ c (Proc.devRef .tc main_arg1) = W8 m ρ c (Proc.devRef .tc main_arg1) from by keep_host main_arg1).trans (keep8_arg1_1 m ρ c)
theorem keep10_arg1_1 (c : Dev nD) : W10 m ρ c (Proc.devRef .tc main_arg1) = W1 m ρ c (Proc.devRef .tc main_arg1) :=
  (W10_of_ne m ρ c main_arg1 (by decide)).trans (keep9_arg1_1 m ρ c)
theorem keep11_arg1_1 (c : Dev nD) : W11 m ρ c (Proc.devRef .tc main_arg1) = W1 m ρ c (Proc.devRef .tc main_arg1) :=
  (show W11 m ρ c (Proc.devRef .tc main_arg1) = W10 m ρ c (Proc.devRef .tc main_arg1) from by keep_host main_arg1).trans (keep10_arg1_1 m ρ c)
theorem keep2_v1_1 (c : Dev nD) : W2 m ρ c (Proc.devRef .tc main_v1) = W1 m ρ c (Proc.devRef .tc main_v1) :=
  W2_of_ne m ρ c main_v1 (by decide)
theorem keep3_v1_1 (c : Dev nD) : W3 m ρ c (Proc.devRef .tc main_v1) = W1 m ρ c (Proc.devRef .tc main_v1) :=
  (show W3 m ρ c (Proc.devRef .tc main_v1) = W2 m ρ c (Proc.devRef .tc main_v1) from by keep_host main_v1).trans (keep2_v1_1 m ρ c)
theorem keep4_v1_1 (c : Dev nD) : W4 m ρ c (Proc.devRef .tc main_v1) = W1 m ρ c (Proc.devRef .tc main_v1) :=
  (W4_of_ne m ρ c main_v1 (by decide)).trans (keep3_v1_1 m ρ c)
theorem keep5_v1_1 (c : Dev nD) : W5 m ρ c (Proc.devRef .tc main_v1) = W1 m ρ c (Proc.devRef .tc main_v1) :=
  (show W5 m ρ c (Proc.devRef .tc main_v1) = W4 m ρ c (Proc.devRef .tc main_v1) from by keep_host main_v1).trans (keep4_v1_1 m ρ c)
theorem keep6_v1_1 (c : Dev nD) : W6 m ρ c (Proc.devRef .tc main_v1) = W1 m ρ c (Proc.devRef .tc main_v1) :=
  (W6_of_ne m ρ c main_v1 (by decide)).trans (keep5_v1_1 m ρ c)
theorem keep7_v1_1 (c : Dev nD) : W7 m ρ c (Proc.devRef .tc main_v1) = W1 m ρ c (Proc.devRef .tc main_v1) :=
  (show W7 m ρ c (Proc.devRef .tc main_v1) = W6 m ρ c (Proc.devRef .tc main_v1) from by keep_host main_v1).trans (keep6_v1_1 m ρ c)
theorem keep8_v1_1 (c : Dev nD) : W8 m ρ c (Proc.devRef .tc main_v1) = W1 m ρ c (Proc.devRef .tc main_v1) :=
  (W8_of_ne m ρ c main_v1 (by decide)).trans (keep7_v1_1 m ρ c)
theorem keep9_v1_1 (c : Dev nD) : W9 m ρ c (Proc.devRef .tc main_v1) = W1 m ρ c (Proc.devRef .tc main_v1) :=
  (show W9 m ρ c (Proc.devRef .tc main_v1) = W8 m ρ c (Proc.devRef .tc main_v1) from by keep_host main_v1).trans (keep8_v1_1 m ρ c)
theorem keep10_v1_1 (c : Dev nD) : W10 m ρ c (Proc.devRef .tc main_v1) = W1 m ρ c (Proc.devRef .tc main_v1) :=
  (W10_of_ne m ρ c main_v1 (by decide)).trans (keep9_v1_1 m ρ c)
theorem keep11_v1_1 (c : Dev nD) : W11 m ρ c (Proc.devRef .tc main_v1) = W1 m ρ c (Proc.devRef .tc main_v1) :=
  (show W11 m ρ c (Proc.devRef .tc main_v1) = W10 m ρ c (Proc.devRef .tc main_v1) from by keep_host main_v1).trans (keep10_v1_1 m ρ c)
theorem keep2_v3_1 (c : Dev nD) : W2 m ρ c (Proc.devRef .tc main_v3) = W1 m ρ c (Proc.devRef .tc main_v3) :=
  W2_of_ne m ρ c main_v3 (by decide)
theorem keep3_v3_1 (c : Dev nD) : W3 m ρ c (Proc.devRef .tc main_v3) = W1 m ρ c (Proc.devRef .tc main_v3) :=
  (show W3 m ρ c (Proc.devRef .tc main_v3) = W2 m ρ c (Proc.devRef .tc main_v3) from by keep_host main_v3).trans (keep2_v3_1 m ρ c)
theorem keep4_v3_1 (c : Dev nD) : W4 m ρ c (Proc.devRef .tc main_v3) = W1 m ρ c (Proc.devRef .tc main_v3) :=
  (W4_of_ne m ρ c main_v3 (by decide)).trans (keep3_v3_1 m ρ c)
theorem keep5_v3_1 (c : Dev nD) : W5 m ρ c (Proc.devRef .tc main_v3) = W1 m ρ c (Proc.devRef .tc main_v3) :=
  (show W5 m ρ c (Proc.devRef .tc main_v3) = W4 m ρ c (Proc.devRef .tc main_v3) from by keep_host main_v3).trans (keep4_v3_1 m ρ c)
theorem keep6_v3_1 (c : Dev nD) : W6 m ρ c (Proc.devRef .tc main_v3) = W1 m ρ c (Proc.devRef .tc main_v3) :=
  (W6_of_ne m ρ c main_v3 (by decide)).trans (keep5_v3_1 m ρ c)
theorem keep7_v3_1 (c : Dev nD) : W7 m ρ c (Proc.devRef .tc main_v3) = W1 m ρ c (Proc.devRef .tc main_v3) :=
  (show W7 m ρ c (Proc.devRef .tc main_v3) = W6 m ρ c (Proc.devRef .tc main_v3) from by keep_host main_v3).trans (keep6_v3_1 m ρ c)
theorem keep8_v3_1 (c : Dev nD) : W8 m ρ c (Proc.devRef .tc main_v3) = W1 m ρ c (Proc.devRef .tc main_v3) :=
  (W8_of_ne m ρ c main_v3 (by decide)).trans (keep7_v3_1 m ρ c)
theorem keep9_v3_1 (c : Dev nD) : W9 m ρ c (Proc.devRef .tc main_v3) = W1 m ρ c (Proc.devRef .tc main_v3) :=
  (show W9 m ρ c (Proc.devRef .tc main_v3) = W8 m ρ c (Proc.devRef .tc main_v3) from by keep_host main_v3).trans (keep8_v3_1 m ρ c)
theorem keep10_v3_1 (c : Dev nD) : W10 m ρ c (Proc.devRef .tc main_v3) = W1 m ρ c (Proc.devRef .tc main_v3) :=
  (W10_of_ne m ρ c main_v3 (by decide)).trans (keep9_v3_1 m ρ c)
theorem keep11_v3_1 (c : Dev nD) : W11 m ρ c (Proc.devRef .tc main_v3) = W1 m ρ c (Proc.devRef .tc main_v3) :=
  (show W11 m ρ c (Proc.devRef .tc main_v3) = W10 m ρ c (Proc.devRef .tc main_v3) from by keep_host main_v3).trans (keep10_v3_1 m ρ c)
theorem keep2_v4_1 (c : Dev nD) : W2 m ρ c (Proc.devRef .tc main_v4) = W1 m ρ c (Proc.devRef .tc main_v4) :=
  W2_of_ne m ρ c main_v4 (by decide)
theorem keep3_v4_1 (c : Dev nD) : W3 m ρ c (Proc.devRef .tc main_v4) = W1 m ρ c (Proc.devRef .tc main_v4) :=
  (show W3 m ρ c (Proc.devRef .tc main_v4) = W2 m ρ c (Proc.devRef .tc main_v4) from by keep_host main_v4).trans (keep2_v4_1 m ρ c)
theorem keep4_v4_1 (c : Dev nD) : W4 m ρ c (Proc.devRef .tc main_v4) = W1 m ρ c (Proc.devRef .tc main_v4) :=
  ((W4_arr m ρ c 2).trans (((dat1 (V3 m ρ) c).arrAt_in 2 rfl _).trans (A_eq1 (V3 m ρ) c 2))).trans (keep3_v4_1 m ρ c)
theorem keep5_v4_1 (c : Dev nD) : W5 m ρ c (Proc.devRef .tc main_v4) = W1 m ρ c (Proc.devRef .tc main_v4) :=
  (show W5 m ρ c (Proc.devRef .tc main_v4) = W4 m ρ c (Proc.devRef .tc main_v4) from by keep_host main_v4).trans (keep4_v4_1 m ρ c)
theorem keep6_v4_1 (c : Dev nD) : W6 m ρ c (Proc.devRef .tc main_v4) = W1 m ρ c (Proc.devRef .tc main_v4) :=
  (W6_of_ne m ρ c main_v4 (by decide)).trans (keep5_v4_1 m ρ c)
theorem keep7_v4_1 (c : Dev nD) : W7 m ρ c (Proc.devRef .tc main_v4) = W1 m ρ c (Proc.devRef .tc main_v4) :=
  (show W7 m ρ c (Proc.devRef .tc main_v4) = W6 m ρ c (Proc.devRef .tc main_v4) from by keep_host main_v4).trans (keep6_v4_1 m ρ c)
theorem keep8_v4_1 (c : Dev nD) : W8 m ρ c (Proc.devRef .tc main_v4) = W1 m ρ c (Proc.devRef .tc main_v4) :=
  ((W8_arr m ρ c 2).trans (((dat3 (V7 m ρ) c).arrAt_in 2 rfl _).trans (A_eq3 (V7 m ρ) c 2))).trans (keep7_v4_1 m ρ c)
theorem keep9_v4_1 (c : Dev nD) : W9 m ρ c (Proc.devRef .tc main_v4) = W1 m ρ c (Proc.devRef .tc main_v4) :=
  (show W9 m ρ c (Proc.devRef .tc main_v4) = W8 m ρ c (Proc.devRef .tc main_v4) from by keep_host main_v4).trans (keep8_v4_1 m ρ c)
theorem keep10_v4_1 (c : Dev nD) : W10 m ρ c (Proc.devRef .tc main_v4) = W1 m ρ c (Proc.devRef .tc main_v4) :=
  (W10_of_ne m ρ c main_v4 (by decide)).trans (keep9_v4_1 m ρ c)
theorem keep11_v4_1 (c : Dev nD) : W11 m ρ c (Proc.devRef .tc main_v4) = W1 m ρ c (Proc.devRef .tc main_v4) :=
  (show W11 m ρ c (Proc.devRef .tc main_v4) = W10 m ρ c (Proc.devRef .tc main_v4) from by keep_host main_v4).trans (keep10_v4_1 m ρ c)
theorem keep2_v5_1 (c : Dev nD) : W2 m ρ c (Proc.devRef .tc main_v5) = W1 m ρ c (Proc.devRef .tc main_v5) :=
  W2_of_ne m ρ c main_v5 (by decide)
theorem keep3_v5_1 (c : Dev nD) : W3 m ρ c (Proc.devRef .tc main_v5) = W1 m ρ c (Proc.devRef .tc main_v5) :=
  (show W3 m ρ c (Proc.devRef .tc main_v5) = W2 m ρ c (Proc.devRef .tc main_v5) from by keep_host main_v5).trans (keep2_v5_1 m ρ c)
theorem keep4_v5_1 (c : Dev nD) : W4 m ρ c (Proc.devRef .tc main_v5) = W1 m ρ c (Proc.devRef .tc main_v5) :=
  ((W4_arr m ρ c 3).trans (((dat1 (V3 m ρ) c).arrAt_in 3 rfl _).trans (A_eq1 (V3 m ρ) c 3))).trans (keep3_v5_1 m ρ c)
theorem keep5_v5_1 (c : Dev nD) : W5 m ρ c (Proc.devRef .tc main_v5) = W1 m ρ c (Proc.devRef .tc main_v5) :=
  (show W5 m ρ c (Proc.devRef .tc main_v5) = W4 m ρ c (Proc.devRef .tc main_v5) from by keep_host main_v5).trans (keep4_v5_1 m ρ c)
theorem keep6_v5_1 (c : Dev nD) : W6 m ρ c (Proc.devRef .tc main_v5) = W1 m ρ c (Proc.devRef .tc main_v5) :=
  (W6_of_ne m ρ c main_v5 (by decide)).trans (keep5_v5_1 m ρ c)
theorem keep7_v5_1 (c : Dev nD) : W7 m ρ c (Proc.devRef .tc main_v5) = W1 m ρ c (Proc.devRef .tc main_v5) :=
  (show W7 m ρ c (Proc.devRef .tc main_v5) = W6 m ρ c (Proc.devRef .tc main_v5) from by keep_host main_v5).trans (keep6_v5_1 m ρ c)
theorem keep8_v5_1 (c : Dev nD) : W8 m ρ c (Proc.devRef .tc main_v5) = W1 m ρ c (Proc.devRef .tc main_v5) :=
  ((W8_arr m ρ c 3).trans (((dat3 (V7 m ρ) c).arrAt_in 3 rfl _).trans (A_eq3 (V7 m ρ) c 3))).trans (keep7_v5_1 m ρ c)
theorem keep9_v5_1 (c : Dev nD) : W9 m ρ c (Proc.devRef .tc main_v5) = W1 m ρ c (Proc.devRef .tc main_v5) :=
  (show W9 m ρ c (Proc.devRef .tc main_v5) = W8 m ρ c (Proc.devRef .tc main_v5) from by keep_host main_v5).trans (keep8_v5_1 m ρ c)
theorem keep10_v5_1 (c : Dev nD) : W10 m ρ c (Proc.devRef .tc main_v5) = W1 m ρ c (Proc.devRef .tc main_v5) :=
  (W10_of_ne m ρ c main_v5 (by decide)).trans (keep9_v5_1 m ρ c)
theorem keep11_v5_1 (c : Dev nD) : W11 m ρ c (Proc.devRef .tc main_v5) = W1 m ρ c (Proc.devRef .tc main_v5) :=
  (show W11 m ρ c (Proc.devRef .tc main_v5) = W10 m ρ c (Proc.devRef .tc main_v5) from by keep_host main_v5).trans (keep10_v5_1 m ρ c)
theorem keep2_v6_1 (c : Dev nD) : W2 m ρ c (Proc.devRef .tc main_v6) = W1 m ρ c (Proc.devRef .tc main_v6) :=
  W2_of_ne m ρ c main_v6 (by decide)
theorem keep3_v6_1 (c : Dev nD) : W3 m ρ c (Proc.devRef .tc main_v6) = W1 m ρ c (Proc.devRef .tc main_v6) :=
  (show W3 m ρ c (Proc.devRef .tc main_v6) = W2 m ρ c (Proc.devRef .tc main_v6) from by keep_host main_v6).trans (keep2_v6_1 m ρ c)
theorem keep4_v6_1 (c : Dev nD) : W4 m ρ c (Proc.devRef .tc main_v6) = W1 m ρ c (Proc.devRef .tc main_v6) :=
  ((W4_arr m ρ c 4).trans (((dat1 (V3 m ρ) c).arrAt_in 4 rfl _).trans (A_eq1 (V3 m ρ) c 4))).trans (keep3_v6_1 m ρ c)
theorem keep5_v6_1 (c : Dev nD) : W5 m ρ c (Proc.devRef .tc main_v6) = W1 m ρ c (Proc.devRef .tc main_v6) :=
  (show W5 m ρ c (Proc.devRef .tc main_v6) = W4 m ρ c (Proc.devRef .tc main_v6) from by keep_host main_v6).trans (keep4_v6_1 m ρ c)
theorem keep6_v6_1 (c : Dev nD) : W6 m ρ c (Proc.devRef .tc main_v6) = W1 m ρ c (Proc.devRef .tc main_v6) :=
  (W6_of_ne m ρ c main_v6 (by decide)).trans (keep5_v6_1 m ρ c)
theorem keep7_v6_1 (c : Dev nD) : W7 m ρ c (Proc.devRef .tc main_v6) = W1 m ρ c (Proc.devRef .tc main_v6) :=
  (show W7 m ρ c (Proc.devRef .tc main_v6) = W6 m ρ c (Proc.devRef .tc main_v6) from by keep_host main_v6).trans (keep6_v6_1 m ρ c)
theorem keep8_v6_1 (c : Dev nD) : W8 m ρ c (Proc.devRef .tc main_v6) = W1 m ρ c (Proc.devRef .tc main_v6) :=
  ((W8_arr m ρ c 4).trans (((dat3 (V7 m ρ) c).arrAt_in 4 rfl _).trans (A_eq3 (V7 m ρ) c 4))).trans (keep7_v6_1 m ρ c)
theorem keep9_v6_1 (c : Dev nD) : W9 m ρ c (Proc.devRef .tc main_v6) = W1 m ρ c (Proc.devRef .tc main_v6) :=
  (show W9 m ρ c (Proc.devRef .tc main_v6) = W8 m ρ c (Proc.devRef .tc main_v6) from by keep_host main_v6).trans (keep8_v6_1 m ρ c)
theorem keep10_v6_1 (c : Dev nD) : W10 m ρ c (Proc.devRef .tc main_v6) = W1 m ρ c (Proc.devRef .tc main_v6) :=
  (W10_of_ne m ρ c main_v6 (by decide)).trans (keep9_v6_1 m ρ c)
theorem keep11_v6_1 (c : Dev nD) : W11 m ρ c (Proc.devRef .tc main_v6) = W1 m ρ c (Proc.devRef .tc main_v6) :=
  (show W11 m ρ c (Proc.devRef .tc main_v6) = W10 m ρ c (Proc.devRef .tc main_v6) from by keep_host main_v6).trans (keep10_v6_1 m ρ c)
theorem keep2_v7_1 (c : Dev nD) : W2 m ρ c (Proc.devRef .tc main_v7) = W1 m ρ c (Proc.devRef .tc main_v7) :=
  W2_of_ne m ρ c main_v7 (by decide)
theorem keep3_v7_1 (c : Dev nD) : W3 m ρ c (Proc.devRef .tc main_v7) = W1 m ρ c (Proc.devRef .tc main_v7) :=
  (show W3 m ρ c (Proc.devRef .tc main_v7) = W2 m ρ c (Proc.devRef .tc main_v7) from by keep_host main_v7).trans (keep2_v7_1 m ρ c)
theorem keep4_v7_1 (c : Dev nD) : W4 m ρ c (Proc.devRef .tc main_v7) = W1 m ρ c (Proc.devRef .tc main_v7) :=
  ((W4_arr m ρ c 5).trans (((dat1 (V3 m ρ) c).arrAt_in 5 rfl _).trans (A_eq1 (V3 m ρ) c 5))).trans (keep3_v7_1 m ρ c)
theorem keep5_v7_1 (c : Dev nD) : W5 m ρ c (Proc.devRef .tc main_v7) = W1 m ρ c (Proc.devRef .tc main_v7) :=
  (show W5 m ρ c (Proc.devRef .tc main_v7) = W4 m ρ c (Proc.devRef .tc main_v7) from by keep_host main_v7).trans (keep4_v7_1 m ρ c)
theorem keep6_v7_1 (c : Dev nD) : W6 m ρ c (Proc.devRef .tc main_v7) = W1 m ρ c (Proc.devRef .tc main_v7) :=
  (W6_of_ne m ρ c main_v7 (by decide)).trans (keep5_v7_1 m ρ c)
theorem keep7_v7_1 (c : Dev nD) : W7 m ρ c (Proc.devRef .tc main_v7) = W1 m ρ c (Proc.devRef .tc main_v7) :=
  (show W7 m ρ c (Proc.devRef .tc main_v7) = W6 m ρ c (Proc.devRef .tc main_v7) from by keep_host main_v7).trans (keep6_v7_1 m ρ c)
theorem keep8_v7_1 (c : Dev nD) : W8 m ρ c (Proc.devRef .tc main_v7) = W1 m ρ c (Proc.devRef .tc main_v7) :=
  ((W8_arr m ρ c 5).trans (((dat3 (V7 m ρ) c).arrAt_in 5 rfl _).trans (A_eq3 (V7 m ρ) c 5))).trans (keep7_v7_1 m ρ c)
theorem keep9_v7_1 (c : Dev nD) : W9 m ρ c (Proc.devRef .tc main_v7) = W1 m ρ c (Proc.devRef .tc main_v7) :=
  (show W9 m ρ c (Proc.devRef .tc main_v7) = W8 m ρ c (Proc.devRef .tc main_v7) from by keep_host main_v7).trans (keep8_v7_1 m ρ c)
theorem keep10_v7_1 (c : Dev nD) : W10 m ρ c (Proc.devRef .tc main_v7) = W1 m ρ c (Proc.devRef .tc main_v7) :=
  (W10_of_ne m ρ c main_v7 (by decide)).trans (keep9_v7_1 m ρ c)
theorem keep11_v7_1 (c : Dev nD) : W11 m ρ c (Proc.devRef .tc main_v7) = W1 m ρ c (Proc.devRef .tc main_v7) :=
  (show W11 m ρ c (Proc.devRef .tc main_v7) = W10 m ρ c (Proc.devRef .tc main_v7) from by keep_host main_v7).trans (keep10_v7_1 m ρ c)
theorem keep2_arg0_1 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem keep3_arg0_1 (c : Dev nD) : W3 m ρ c (Proc.devRef .tc main_arg0) = W1 m ρ c (Proc.devRef .tc main_arg0) :=
  (show W3 m ρ c (Proc.devRef .tc main_arg0) = W2 m ρ c (Proc.devRef .tc main_arg0) from by keep_host main_arg0).trans (keep2_arg0_1 m ρ c)
theorem keep5_v21_4 (c : Dev nD) : W5 m ρ c (Proc.devRef .tc main_v21) = W4 m ρ c (Proc.devRef .tc main_v21) :=
  by keep_host main_v21
theorem keep6_v21_4 (c : Dev nD) : W6 m ρ c (Proc.devRef .tc main_v21) = W4 m ρ c (Proc.devRef .tc main_v21) :=
  ((W6_arr m ρ c 0).trans (((dat2 (V5 m ρ) c).arrAt_in 0 rfl _).trans (A_eq2 (V5 m ρ) c 0))).trans (keep5_v21_4 m ρ c)
theorem keep7_v21_4 (c : Dev nD) : W7 m ρ c (Proc.devRef .tc main_v21) = W4 m ρ c (Proc.devRef .tc main_v21) :=
  (show W7 m ρ c (Proc.devRef .tc main_v21) = W6 m ρ c (Proc.devRef .tc main_v21) from by keep_host main_v21).trans (keep6_v21_4 m ρ c)
theorem keep9_v35_8 (c : Dev nD) : W9 m ρ c (Proc.devRef .tc main_v35) = W8 m ρ c (Proc.devRef .tc main_v35) :=
  by keep_host main_v35
theorem keep10_v35_8 (c : Dev nD) : W10 m ρ c (Proc.devRef .tc main_v35) = W8 m ρ c (Proc.devRef .tc main_v35) :=
  ((W10_arr m ρ c 0).trans (((dat4 (V9 m ρ) c).arrAt_in 0 rfl _).trans (A_eq4 (V9 m ρ) c 0))).trans (keep9_v35_8 m ρ c)
theorem keep11_v35_8 (c : Dev nD) : W11 m ρ c (Proc.devRef .tc main_v35) = W8 m ρ c (Proc.devRef .tc main_v35) :=
  (show W11 m ρ c (Proc.devRef .tc main_v35) = W10 m ρ c (Proc.devRef .tc main_v35) from by keep_host main_v35).trans (keep10_v35_8 m ρ c)

/-! ## The edge sums: rows of the products gathered at the sources and added into the targets -/

/-- The host's aggregation of a node array `M` over the edges with sources `e1` and targets `e3`: a negative source is
    read from the end (the comparison, the sum and the choice), the rows of `M` at the sources are gathered, and each is
    added into the zero array at its target. -/
def aggK (M : FVec Ideal S50000x400 .f32) (e1 e3 : IVec S200000 32) : FVec Ideal S50000x400 .f32 :=
  Host.scatterAdd scatter_S50000x400_S200000x1_S200000x400_1_0_0_1
    (broadcastInDim S50000x400 ![] bcast_S_S50000x400 (constant S_ .f32 0x00000000#32))
    (broadcastInDim S200000x1 ![0] bcast_S200000_S200000x1_0 e3)
    (Host.gather gather_S50000x400_S200000x1_S200000x400_1_0_n_n_0_1_1400 M
      (broadcastInDim S200000x1 ![0] bcast_S200000_S200000x1_0
        (select (cmpi .slt e1 (broadcastInDim S200000 ![] bcast_S_S200000 (constantI S_ 32 0#32)))
          (addi e1 (broadcastInDim S200000 ![] bcast_S_S200000 (constantI S_ 32 50000#32))) e1)))

/-! ## What each segment writes -/

theorem val2 (c : Dev nD) : W2 m ρ c (Proc.devRef .tc main_v10)
    = lin (W1 m ρ c (Proc.devRef .tc main_arg0)) (W1 m ρ c (Proc.devRef .tc main_v9)) :=
  (W2_arr m ρ c 2).trans (arr0 (V1 m ρ) c)

theorem val3 (c : Dev nD) : W3 m ρ c (Proc.devRef .tc main_v20)
    = aggK (W2 m ρ c (Proc.devRef .tc main_v10)) (W2 m ρ c (Proc.devRef .tc main_v1)) (W2 m ρ c (Proc.devRef .tc main_v3)) := by
  show StableHlo.after hostOps1 (W2 m ρ c) (Proc.devRef .tc main_v20) = _
  after_results
  rfl

theorem val4 (c : Dev nD) : W4 m ρ c (Proc.devRef .tc main_v21)
    = gru (W3 m ρ c (Proc.devRef .tc main_v20)) (W3 m ρ c (Proc.devRef .tc main_arg0)) (W3 m ρ c (Proc.devRef .tc main_v4))
        (W3 m ρ c (Proc.devRef .tc main_v5)) (W3 m ρ c (Proc.devRef .tc main_v6)) (W3 m ρ c (Proc.devRef .tc main_v7)) :=
  (W4_arr m ρ c 6).trans (arr1 (V3 m ρ) c)

theorem val5 (c : Dev nD) : W5 m ρ c (Proc.devRef .tc main_v23)
    = shapeCast S400x400 (extractStridedSlice S1x400x400 ![1, 0, 0] (W4 m ρ c (Proc.devRef .tc main_arg1)) slices_S3x400x400_S1x400x400_1_0_0)
        shapeCasts_S1x400x400_S400x400 := by
  show StableHlo.after hostOps2 (W4 m ρ c) (Proc.devRef .tc main_v23) = _
  after_results
  rfl

theorem val6 (c : Dev nD) : W6 m ρ c (Proc.devRef .tc main_v24)
    = lin (W5 m ρ c (Proc.devRef .tc main_v21)) (W5 m ρ c (Proc.devRef .tc main_v23)) :=
  (W6_arr m ρ c 2).trans (arr2 (V5 m ρ) c)

theorem val7 (c : Dev nD) : W7 m ρ c (Proc.devRef .tc main_v34)
    = aggK (W6 m ρ c (Proc.devRef .tc main_v24)) (W6 m ρ c (Proc.devRef .tc main_v1)) (W6 m ρ c (Proc.devRef .tc main_v3)) := by
  show StableHlo.after hostOps3 (W6 m ρ c) (Proc.devRef .tc main_v34) = _
  after_results
  rfl

theorem val8 (c : Dev nD) : W8 m ρ c (Proc.devRef .tc main_v35)
    = gru (W7 m ρ c (Proc.devRef .tc main_v34)) (W7 m ρ c (Proc.devRef .tc main_v21)) (W7 m ρ c (Proc.devRef .tc main_v4))
        (W7 m ρ c (Proc.devRef .tc main_v5)) (W7 m ρ c (Proc.devRef .tc main_v6)) (W7 m ρ c (Proc.devRef .tc main_v7)) :=
  (W8_arr m ρ c 6).trans (arr3 (V7 m ρ) c)

theorem val9 (c : Dev nD) : W9 m ρ c (Proc.devRef .tc main_v37)
    = shapeCast S400x400 (extractStridedSlice S1x400x400 ![2, 0, 0] (W8 m ρ c (Proc.devRef .tc main_arg1)) slices_S3x400x400_S1x400x400_2_0_0)
        shapeCasts_S1x400x400_S400x400 := by
  show StableHlo.after hostOps4 (W8 m ρ c) (Proc.devRef .tc main_v37) = _
  after_results
  rfl

theorem val10 (c : Dev nD) : W10 m ρ c (Proc.devRef .tc main_v38)
    = lin (W9 m ρ c (Proc.devRef .tc main_v35)) (W9 m ρ c (Proc.devRef .tc main_v37)) :=
  (W10_arr m ρ c 2).trans (arr4 (V9 m ρ) c)

theorem val11 (c : Dev nD) : W11 m ρ c (Proc.devRef .tc main_v48)
    = aggK (W10 m ρ c (Proc.devRef .tc main_v38)) (W10 m ρ c (Proc.devRef .tc main_v1)) (W10 m ρ c (Proc.devRef .tc main_v3)) := by
  show StableHlo.after hostOps5 (W10 m ρ c) (Proc.devRef .tc main_v48) = _
  after_results
  rfl

theorem val12 (c : Dev nD) : W12 m ρ c (Proc.devRef .tc main_v49)
    = gru (W11 m ρ c (Proc.devRef .tc main_v48)) (W11 m ρ c (Proc.devRef .tc main_v35)) (W11 m ρ c (Proc.devRef .tc main_v4))
        (W11 m ρ c (Proc.devRef .tc main_v5)) (W11 m ρ c (Proc.devRef .tc main_v6)) (W11 m ρ c (Proc.devRef .tc main_v7)) :=
  (W12_arr m ρ c 6).trans (arr5 (V11 m ρ) c)

/-! ## One layer, and the result -/

/-- One layer on node states `h` with layer matrix `Wl`: the products, their sums over the edges, the gated cell. -/
def layerK (h : FVec Ideal S50000x400 .f32) (Wl : FVec Ideal S400x400 .f32) (e1 e3 : IVec S200000 32)
    (A B : FVec Ideal S400x1200 .f32) (bi bh : FVec Ideal S1x1200 .f32) : FVec Ideal S50000x400 .f32 :=
  gru (aggK (lin h Wl) e1 e3) h A B bi bh

/-- The layer matrix `l` cut from the stack. -/
def wsl (off : Fin 3 → ℕ) (hs : S3x400x400.Slices off S1x400x400) (a1 : FVec Ideal S3x400x400 .f32) : FVec Ideal S400x400 .f32 :=
  shapeCast S400x400 (extractStridedSlice S1x400x400 off a1 hs) shapeCasts_S1x400x400_S400x400

/-- The result buffer after the run: three layers on the input states, every other operand as the first stretch of host
    operations left it. -/
theorem result (c : Dev nD) : W12 m ρ c (Proc.devRef .tc main_v49)
    = layerK (layerK (layerK (W1 m ρ c (Proc.devRef .tc main_arg0)) (W1 m ρ c (Proc.devRef .tc main_v9))
          (W1 m ρ c (Proc.devRef .tc main_v1)) (W1 m ρ c (Proc.devRef .tc main_v3)) (W1 m ρ c (Proc.devRef .tc main_v4))
          (W1 m ρ c (Proc.devRef .tc main_v5)) (W1 m ρ c (Proc.devRef .tc main_v6)) (W1 m ρ c (Proc.devRef .tc main_v7)))
        (wsl ![1, 0, 0] slices_S3x400x400_S1x400x400_1_0_0 (W1 m ρ c (Proc.devRef .tc main_arg1)))
          (W1 m ρ c (Proc.devRef .tc main_v1)) (W1 m ρ c (Proc.devRef .tc main_v3)) (W1 m ρ c (Proc.devRef .tc main_v4))
          (W1 m ρ c (Proc.devRef .tc main_v5)) (W1 m ρ c (Proc.devRef .tc main_v6)) (W1 m ρ c (Proc.devRef .tc main_v7)))
        (wsl ![2, 0, 0] slices_S3x400x400_S1x400x400_2_0_0 (W1 m ρ c (Proc.devRef .tc main_arg1)))
          (W1 m ρ c (Proc.devRef .tc main_v1)) (W1 m ρ c (Proc.devRef .tc main_v3)) (W1 m ρ c (Proc.devRef .tc main_v4))
          (W1 m ρ c (Proc.devRef .tc main_v5)) (W1 m ρ c (Proc.devRef .tc main_v6)) (W1 m ρ c (Proc.devRef .tc main_v7)) := by
  rw [val12, val11, val10, val9, keep11_v35_8, keep9_v35_8, val8, val7, val6, val5, keep7_v21_4, keep5_v21_4, val4, val3, val2,
    keep11_v4_1, keep11_v5_1, keep11_v6_1, keep11_v7_1, keep10_v1_1, keep10_v3_1, keep8_arg1_1,
    keep7_v4_1, keep7_v5_1, keep7_v6_1, keep7_v7_1, keep6_v1_1, keep6_v3_1, keep4_arg1_1,
    keep3_v4_1, keep3_v5_1, keep3_v6_1, keep3_v7_1, keep3_arg0_1, keep2_v1_1, keep2_v3_1]
  rfl

end Cert.KernelIdeal.Val

end
-- ==== Proof.Bridge.lean ====
/-
  The two programs compute one function of the arguments.

  After its first stretch of host operations the kernel holds the edges' sources and targets (the two rows of the edge
  array), the two matrices transposed, the two biases cast to rows and the first layer matrix cut from the stack; the
  reference forms the same arrays where it needs them — the biases laid out as rows by a broadcast, which is the same
  row. With these, a layer of the kernel and a layer of the reference are the same gated cell on the same edge sums of
  the same product array, so three layers on arguments that agree give equal results.
-/
import proofs.«168568_j25494925869146_1_alg».proof.Proof.KVal
import proofs.«168568_j25494925869146_1_alg».proof.Proof.RefSide

set_option maxRecDepth 16384

noncomputable section

namespace Cert.Bridge

open Idealize.ShloMosaic Idealize.ShloMosaic.TcCoe Idealize.ShloMosaic.ValueIdx Idealize.SL.Sem Idealize.ShloMosaic.StableHlo
open Cert.Gnn

section Kernel
open Cert.KernelIdeal Cert.KernelIdeal.Gen Cert.KernelIdeal.Val

variable (m : (ℓ : Loc nD τ sig) → Buf (Elt Ideal) ℓ) (ρ : Dev nD → PrngReg)

/-! ## What the first stretch of host operations leaves -/

theorem w1_arg0 (c : Dev nD) : W1 m ρ c (Proc.devRef .tc main_arg0) = m ((c.tc : Thread nD τ).loc main_arg0) := by
  show StableHlo.after hostOps0 (W0 m ρ c) (Proc.devRef .tc main_arg0) = _
  after_results <;> rfl
theorem w1_arg1 (c : Dev nD) : W1 m ρ c (Proc.devRef .tc main_arg1) = m ((c.tc : Thread nD τ).loc main_arg1) := by
  show StableHlo.after hostOps0 (W0 m ρ c) (Proc.devRef .tc main_arg1) = _
  after_results <;> rfl
theorem w1_v1 (c : Dev nD) : W1 m ρ c (Proc.devRef .tc main_v1)
    = shapeCast S200000 (extractStridedSlice S1x200000 ![0, 0] (m ((c.tc : Thread nD τ).loc main_arg6)) slices_S2x200000_S1x200000_0_0) shapeCasts_S1x200000_S200000 := by
  show StableHlo.after hostOps0 (W0 m ρ c) (Proc.devRef .tc main_v1) = _
  after_results <;> rfl
theorem w1_v3 (c : Dev nD) : W1 m ρ c (Proc.devRef .tc main_v3)
    = shapeCast S200000 (extractStridedSlice S1x200000 ![1, 0] (m ((c.tc : Thread nD τ).loc main_arg6)) slices_S2x200000_S1x200000_1_0) shapeCasts_S1x200000_S200000 := by
  show StableHlo.after hostOps0 (W0 m ρ c) (Proc.devRef .tc main_v3) = _
  after_results <;> rfl
theorem w1_v4 (c : Dev nD) : W1 m ρ c (Proc.devRef .tc main_v4)
    = transpose S400x1200 [1, 0] (m ((c.tc : Thread nD τ).loc main_arg2)) transposes_S1200x400_S400x1200_1_0 := by
  show StableHlo.after hostOps0 (W0 m ρ c) (Proc.devRef .tc main_v4) = _
  after_results <;> rfl
theorem w1_v5 (c : Dev nD) : W1 m ρ c (Proc.devRef .tc main_v5)
    = transpose S400x1200 [1, 0] (m ((c.tc : Thread nD τ).loc main_arg3)) transposes_S1200x400_S400x1200_1_0 := by
  show StableHlo.after hostOps0 (W0 m ρ c) (Proc.devRef .tc main_v5) = _
  after_results <;> rfl
theorem w1_v6 (c : Dev nD) : W1 m ρ c (Proc.devRef .tc main_v6)
    = shapeCast S1x1200 (m ((c.tc : Thread nD τ).loc main_arg4)) shapeCasts_S1200_S1x1200 := by
  show StableHlo.after hostOps0 (W0 m ρ c) (Proc.devRef .tc main_v6) = _
  after_results <;> rfl
theorem w1_v7 (c : Dev nD) : W1 m ρ c (Proc.devRef .tc main_v7)
    = shapeCast S1x1200 (m ((c.tc : Thread nD τ).loc main_arg5)) shapeCasts_S1200_S1x1200 := by
  show StableHlo.after hostOps0 (W0 m ρ c) (Proc.devRef .tc main_v7) = _
  after_results <;> rfl
theorem w1_v9 (c : Dev nD) : W1 m ρ c (Proc.devRef .tc main_v9)
    = wsl ![0, 0, 0] slices_S3x400x400_S1x400x400_0_0_0 (m ((c.tc : Thread nD τ).loc main_arg1)) := by
  show StableHlo.after hostOps0 (W0 m ρ c) (Proc.devRef .tc main_v9) = _
  after_results <;> rfl

end Kernel

/-! ## The two results -/

/-- From memories that agree on the arguments, the reference's three layers are the kernel's result. -/
theorem net_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefValue.netR (launchContents m' c)
      = Cert.KernelIdeal.Gen.W12 m ρ c (Proc.devRef .tc Cert.KernelIdeal.main_v49) := by
  rw [Cert.KernelIdeal.Val.result m ρ c, w1_arg0, w1_arg1, w1_v1, w1_v3, w1_v4, w1_v5, w1_v6, w1_v7, w1_v9]
  unfold Cert.ReferenceIdeal.RefValue.netR
  rw [Cert.ReferenceIdeal.RefValue.layerR_eq _ _ _ _ _ _ _ _ Cert.KernelIdeal.Gen.shapeCasts_S1200_S1x1200,
    Cert.ReferenceIdeal.RefValue.layerR_eq _ _ _ _ _ _ _ _ Cert.KernelIdeal.Gen.shapeCasts_S1200_S1x1200,
    Cert.ReferenceIdeal.RefValue.layerR_eq _ _ _ _ _ _ _ _ Cert.KernelIdeal.Gen.shapeCasts_S1200_S1x1200]
  unfold Cert.ReferenceIdeal.Value.res_main_v1 Cert.ReferenceIdeal.Value.res_main_v3
  show _ = _
  rw [show launchContents m' c (Proc.devRef .tc Cert.ReferenceIdeal.main_arg0) = m ((c.tc : Thread Cert.KernelIdeal.nD Cert.KernelIdeal.τ).loc Cert.KernelIdeal.main_arg0) from h0,
    show launchContents m' c (Proc.devRef .tc Cert.ReferenceIdeal.main_arg1) = m ((c.tc : Thread Cert.KernelIdeal.nD Cert.KernelIdeal.τ).loc Cert.KernelIdeal.main_arg1) from h1,
    show launchContents m' c (Proc.devRef .tc Cert.ReferenceIdeal.main_arg2) = m ((c.tc : Thread Cert.KernelIdeal.nD Cert.KernelIdeal.τ).loc Cert.KernelIdeal.main_arg2) from h2,
    show launchContents m' c (Proc.devRef .tc Cert.ReferenceIdeal.main_arg3) = m ((c.tc : Thread Cert.KernelIdeal.nD Cert.KernelIdeal.τ).loc Cert.KernelIdeal.main_arg3) from h3,
    show launchContents m' c (Proc.devRef .tc Cert.ReferenceIdeal.main_arg4) = m ((c.tc : Thread Cert.KernelIdeal.nD Cert.KernelIdeal.τ).loc Cert.KernelIdeal.main_arg4) from h4,
    show launchContents m' c (Proc.devRef .tc Cert.ReferenceIdeal.main_arg5) = m ((c.tc : Thread Cert.KernelIdeal.nD Cert.KernelIdeal.τ).loc Cert.KernelIdeal.main_arg5) from h5,
    show launchContents m' c (Proc.devRef .tc Cert.ReferenceIdeal.main_arg6) = m ((c.tc : Thread Cert.KernelIdeal.nD Cert.KernelIdeal.τ).loc Cert.KernelIdeal.main_arg6) from h6]
  rfl

end Cert.Bridge

end
-- ==== Proof.lean ====
/-
  A three-layer gated graph network: the pipelined kernel against its plain reference, at the extended reals.

  Both programs take node states (50000 rows of 400 numbers), a stack of three 400 x 400 layer matrices, the two
  1200 x 400 matrices and the two biases of a gated recurrent cell, and 200000 edges. Each of the three layers multiplies
  every node's row by the layer's matrix, sums the products' rows over the edges into the edges' targets, and updates
  every node's row by the gated cell from those sums and the old row.

  The kernel does the two dense stages in pipelined regions — 25 blocks of 2000 rows for the product, 125 blocks of 400
  rows for the cell — and the gather and scatter-add on the host between them; the reference does everything on the host.
  At the extended reals the narrow float format of the kernel's matrix products is the identity, a product into a zero
  accumulator and the host's product are the same sum over the 400 inner indices, the kernel's logistic operation is
  the reference's 1 / (1 + exp(-x)), and the row blocks tile the arrays: so each region's output array is the same
  function of its input arrays as the reference's operations, entry by entry, and the three layers agree. No law of
  arithmetic beyond this rearrangement is used, so the finiteness of the inputs is never opened.

  The frames: the two kernel programs' are the generated frame certificates of their six regions; the reference's is
  its generated run with the result dropped. The idealization rewrote nothing, so the kernel is its own idealization.
-/
import proofs.«168568_j25494925869146_1_alg».proof.Defs
import proofs.«168568_j25494925869146_1_alg».proof.Proof.Gen.Kernel
import proofs.«168568_j25494925869146_1_alg».proof.Proof.Gen.Kernel.Frame
import proofs.«168568_j25494925869146_1_alg».proof.Proof.Gen.KernelIdeal
import proofs.«168568_j25494925869146_1_alg».proof.Proof.Gen.KernelIdeal.Frame
import proofs.«168568_j25494925869146_1_alg».proof.Proof.Gen.ReferenceIdeal
import proofs.«168568_j25494925869146_1_alg».proof.Proof.Gen.ReferenceIdeal.Run
import proofs.«168568_j25494925869146_1_alg».proof.Proof.Gen.Pre_finite_inputs
import proofs.«168568_j25494925869146_1_alg».proof.Proof.KRun
import proofs.«168568_j25494925869146_1_alg».proof.Proof.RefSide
import proofs.«168568_j25494925869146_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result after its run and the reference's three layers are one array, on every device, from memories
    that agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W12 m ρ c (Proc.devRef .tc Cert.KernelIdeal.main_v49), Cert.KernelIdeal.Run.run_main m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, -⟩ := hagree c
  exact Cert.Bridge.net_eq m ρ m' c h0 h1 h2 h3 h4 h5 h6

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
